-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x64 : Shape := ⟨3, ![16, 8192, 64]⟩
abbrev S16x8192x3 : Shape := ⟨3, ![16, 8192, 3]⟩
abbrev S64x128 : Shape := ⟨2, ![64, 128]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel
  bcast_S_S16x8192x3 : S_.BroadcastsInDim S16x8192x3 (![] : Fin 0 → Fin S16x8192x3.rank)
  reducesTo_S16x8192x3_S_d0_1_2 : S16x8192x3.ReducesTo [0, 1, 2] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S16x8192x64 .f32) (main_arg1 : FVec F S16x8192x3 .f32) (main_arg2 : FVec F S64x128 .f32) (main_arg3 : FVec F S64x128 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x8192x3 .f32 := Host.absf main_arg1
  let main_cst_0 : FVec F S_ .f32 := constant S_ .f32 0x7F800000#32
  let main_v5 : FVec F S16x8192x3 .f32 := broadcastInDim S16x8192x3 ![] bcast_S_S16x8192x3 main_cst_0
  let main_v6 : IVec S16x8192x3 1 := cmpf .olt main_v4 main_v5
  let main_c_1 : IVec S_ 1 := constantI S_ 1 1#1
  let main_v7 : IVec S_ 1 := (fun x v => Host.reduce IntOp.andi x v reducesTo_S16x8192x3_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S16x8192x64 : Shape := ⟨3, ![16, 8192, 64]⟩
abbrev S16x8192x3 : Shape := ⟨3, ![16, 8192, 3]⟩
abbrev S64x128 : Shape := ⟨2, ![64, 128]⟩
abbrev S16x8192x1 : Shape := ⟨3, ![16, 8192, 1]⟩
abbrev S16x8192 : Shape := ⟨2, ![16, 8192]⟩
abbrev S16x512 : Shape := ⟨2, ![16, 512]⟩
abbrev S8x2048x64 : Shape := ⟨3, ![8, 2048, 64]⟩
abbrev S8x2048 : Shape := ⟨2, ![8, 2048]⟩
abbrev S8x512 : Shape := ⟨2, ![8, 512]⟩
abbrev S8x256 : Shape := ⟨2, ![8, 256]⟩
abbrev S8x64 : Shape := ⟨2, ![8, 64]⟩
abbrev S8x2048x1 : Shape := ⟨3, ![8, 2048, 1]⟩
abbrev S8x128 : Shape := ⟨2, ![8, 128]⟩
abbrev S8x128x1 : Shape := ⟨3, ![8, 128, 1]⟩
abbrev S8x128x3 : Shape := ⟨3, ![8, 128, 3]⟩
abbrev S8x384 : Shape := ⟨2, ![8, 384]⟩

abbrev nBuf : Space → Nat
  | .hbm => 11
  | .vmem => 13
  | .smem => 0
  | _ => 0

abbrev bufTy : (tb : Table) → Fin (tcTables nBuf tb) → BufTy
  | .hbm, ⟨0, _⟩ => ⟨S16x8192x64, .f32⟩
  | .hbm, ⟨1, _⟩ => ⟨S16x8192x3, .f32⟩
  | .hbm, ⟨2, _⟩ => ⟨S64x128, .f32⟩
  | .hbm, ⟨3, _⟩ => ⟨S64x128, .f32⟩
  | .hbm, ⟨4, _⟩ => ⟨S16x8192x1, .f32⟩
  | .hbm, ⟨5, _⟩ => ⟨S16x8192, .f32⟩
  | .hbm, ⟨6, _⟩ => ⟨S16x8192x1, .f32⟩
  | .hbm, ⟨7, _⟩ => ⟨S16x8192, .f32⟩
  | .hbm, ⟨8, _⟩ => ⟨S16x8192x1, .f32⟩
  | .hbm, ⟨9, _⟩ => ⟨S16x8192, .f32⟩
  | .hbm, ⟨10, _⟩ => ⟨S16x512, .f32⟩
  | .local _ .vmem, ⟨0, _⟩ => ⟨S8x2048x64, .f32⟩
  | .local _ .vmem, ⟨1, _⟩ => ⟨S8x2048x64, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S64x128, .f32⟩
  | .local _ .vmem, ⟨9, _⟩ => ⟨S64x128, .f32⟩
  | .local _ .vmem, ⟨10, _⟩ => ⟨S8x512, .f32⟩
  | .local _ .vmem, ⟨11, _⟩ => ⟨S8x512, .f32⟩
  | .local _ .vmem, ⟨12, _⟩ => ⟨S8x256, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_19 : BitVec 32 := 0#32
  let v46 : BitVec 1 := Scalar.cmpi .ne v45 c0_i32_19
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S16x8192x3_S16x8192x1_0_0_0 : S16x8192x3.Slices ![0, 0, 0] S16x8192x1
  shapeCasts_S16x8192x1_S16x8192 : S16x8192x1.ShapeCasts S16x8192
  slices_S16x8192x3_S16x8192x1_0_0_1 : S16x8192x3.Slices ![0, 0, 1] S16x8192x1
  slices_S16x8192x3_S16x8192x1_0_0_2 : S16x8192x3.Slices ![0, 0, 2] S16x8192x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x2048x64_S8x2048x64_0_0_0 : ∀ a, (![0, 0, 0] : Fin 3 → Nat) a + S8x2048x64.size a ≤ S8x2048x64.size a
  h_S8x2048x64 : 0 < S8x2048x64.numel
  reduces_S8x2048x64_S8x64 : S8x2048x64.Reduces [1] S8x64
  shapeCasts_S8x2048_S8x2048x1 : S8x2048.ShapeCasts S8x2048x1
  broadcasts_S8x2048x1_S8x2048x64 : S8x2048x1.Broadcasts S8x2048x64
  concatenates_S8x64_S8x64_S8x64_S8x64_S8x256_d1 : Shape.Concatenates [S8x64, S8x64, S8x64, S8x64] S8x256 1
  slices_S8x256_o0_0_S8x64 : S8x256.Slices ![0, 0] S8x64
  slices_S8x256_o0_64_S8x64 : S8x256.Slices ![0, 64] S8x64
  slices_S8x256_o0_128_S8x64 : S8x256.Slices ![0, 128] S8x64
  slices_S8x256_o0_192_S8x64 : S8x256.Slices ![0, 192] S8x64
  inb_S64x128_S64x128_0_0 : ∀ a, (![0, 0] : Fin 2 → Nat) a + S64x128.size a ≤ S64x128.size a
  h_S64x128 : 0 < S64x128.numel
  shapeCasts_S8x128_S8x128x1 : S8x128.ShapeCasts S8x128x1
  concatenates_S8x128x1_S8x128x1_S8x128x1_S8x128x3_d2 : Shape.Concatenates [S8x128x1, S8x128x1, S8x128x1] S8x128x3 2
  shapeCasts_S8x128x3_S8x384 : S8x128x3.ShapeCasts S8x384
  concatenates_S8x128_S8x384_S8x512_d1 : Shape.Concatenates [S8x128, S8x384] S8x512 1
  inb_S8x512_S8x512_0_0 : ∀ a, (![0, 0] : Fin 2 → Nat) a + S8x512.size a ≤ S8x512.size a
  h_S8x512 : 0 < S8x512.numel
  dot_S8x64_S64x128_S8x128_1_0_0_1_n_n_wf : DotDims.WF S8x64 S64x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x64.size a ≤ S16x8192x64.size a
  hwx0_0 : ∀ i : grid0.Coords, EltTy.bits .f32 = 32 ∨ (Rect.block (s := S16x8192x64) S8x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S16x8192.size a
  hwx0_1 : ∀ i : grid0.Coords, EltTy.bits .f32 = 32 ∨ (Rect.block (s := S16x8192) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x8192.size a
  hwx0_2 : ∀ i : grid0.Coords, EltTy.bits .f32 = 32 ∨ (Rect.block (s := S16x8192) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S16x8192.size a
  hwx0_3 : ∀ i : grid0.Coords, EltTy.bits .f32 = 32 ∨ (Rect.block (s := S16x8192) S8x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S16x512.size a
  hwx0_6 : ∀ i : grid0.Coords, EltTy.bits .f32 = 32 ∨ (Rect.block (s := S16x512) S8x512.size (cc0_transform_6 i) (hinb0_6 i)).WholeWords (EltTy.packing .f32)

variable [Facts₀]

def dot_S8x64_S64x128_S8x128_1_0_0_1_n_n : DotDims S8x64 S64x128 S8x128 where
  lhsContracting := [1]
  rhsContracting := [0]
  lhsNonContracting := [0]
  rhsNonContracting := [1]
  lhsBatch := []
  rhsBatch := []
  wf := dot_S8x64_S64x128_S8x128_1_0_0_1_n_n_wf

abbrev win0_0 : Pipeline.Window sig grid0 :=
  Pipeline.Window.ofSpec (Memref.whole main_arg0) S8x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x8192x64 : Shape := ⟨3, ![16, 8192, 64]⟩
abbrev S16x8192x3 : Shape := ⟨3, ![16, 8192, 3]⟩
abbrev S64x128 : Shape := ⟨2, ![64, 128]⟩
abbrev S_ : Shape := ⟨0, ![]⟩
abbrev S16x8192 : Shape := ⟨2, ![16, 8192]⟩
abbrev S16x8192x1 : Shape := ⟨3, ![16, 8192, 1]⟩
abbrev S16x8192x5 : Shape := ⟨3, ![16, 8192, 5]⟩
abbrev S16x8192x128 : Shape := ⟨3, ![16, 8192, 128]⟩
abbrev S16x8192x128x1 : Shape := ⟨4, ![16, 8192, 128, 1]⟩
abbrev S16x8192x1x3 : Shape := ⟨4, ![16, 8192, 1, 3]⟩
abbrev S16x8192x128x3 : Shape := ⟨4, ![16, 8192, 128, 3]⟩
abbrev S16x8192x384 : Shape := ⟨3, ![16, 8192, 384]⟩
abbrev S16x8192x512 : Shape := ⟨3, ![16, 8192, 512]⟩
abbrev S16x512 : Shape := ⟨2, ![16, 512]⟩

abbrev nBuf : Space → Nat
  | .hbm => 80
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x3, .f32⟩
  | .hbm, ⟨2, _⟩ => ⟨S64x128, .f32⟩
  | .hbm, ⟨3, _⟩ => ⟨S64x128, .f32⟩
  | .hbm, ⟨4, _⟩ => ⟨S16x8192x3, .f32⟩
  | .hbm, ⟨5, _⟩ => ⟨S_, .f32⟩
  | .hbm, ⟨6, _⟩ => ⟨S16x8192, .f32⟩
  | .hbm, ⟨7, _⟩ => ⟨S16x8192x1, .f32⟩
  | .hbm, ⟨8, _⟩ => ⟨S16x8192x1, .f32⟩
  | .hbm, ⟨9, _⟩ => ⟨S16x8192x3, .f32⟩
  | .hbm, ⟨10, _⟩ => ⟨S16x8192x3, .f32⟩
  | .hbm, ⟨11, _⟩ => ⟨S16x8192x1, .f32⟩
  | .hbm, ⟨12, _⟩ => ⟨S16x8192, .f32⟩
  | .hbm, ⟨13, _⟩ => ⟨S16x8192x1, .f32⟩
  | .hbm, ⟨14, _⟩ => ⟨S16x8192, .f32⟩
  | .hbm, ⟨15, _⟩ => ⟨S16x8192x1, .f32⟩
  | .hbm, ⟨16, _⟩ => ⟨S16x8192, .f32⟩
  | .hbm, ⟨17, _⟩ => ⟨S_, .f32⟩
  | .hbm, ⟨18, _⟩ => ⟨S16x8192, .f32⟩
  | .hbm, ⟨19, _⟩ => ⟨S_, .f32⟩
  | .hbm, ⟨20, _⟩ => ⟨S16x8192x3, .f32⟩
  | .hbm, ⟨21, _⟩ => ⟨S16x8192x3, .f32⟩
  | .hbm, ⟨22, _⟩ => ⟨S_, .f32⟩
  | .hbm, ⟨23, _⟩ => ⟨S16x8192, .f32⟩
  | .hbm, ⟨24, _⟩ => ⟨S16x8192, .f32⟩
  | .hbm, ⟨25, _⟩ => ⟨S16x8192, .f32⟩
  | .hbm, ⟨26, _⟩ => ⟨S_, .f32⟩
  | .hbm, ⟨27, _⟩ => ⟨S16x8192, .f32⟩
  | .hbm, ⟨28, _⟩ => ⟨S16x8192, .f32⟩
  | .hbm, ⟨29, _⟩ => ⟨S16x8192, .f32⟩
  | .hbm, ⟨30, _⟩ => ⟨S16x8192, .f32⟩
  | .hbm, ⟨31, _⟩ => ⟨S16x8192, .f32⟩
  | .hbm, ⟨32, _⟩ => ⟨S16x8192, .f32⟩
  | .hbm, ⟨33, _⟩ => ⟨S16x8192, .f32⟩
  | .hbm, ⟨34, _⟩ => ⟨S_, .f32⟩
  | .hbm, ⟨35, _⟩ => ⟨S16x8192, .f32⟩
  | .hbm, ⟨36, _⟩ => ⟨S16x8192, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S16x8192, .f32⟩
  | .hbm, ⟨42, _⟩ => ⟨S16x8192, .f32⟩
  | .hbm, ⟨43, _⟩ => ⟨S16x8192, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S16x8192x1, .f32⟩
  | .hbm, ⟨49, _⟩ => ⟨S16x8192x1, .f32⟩
  | .hbm, ⟨50, _⟩ => ⟨S16x8192x1, .f32⟩
  | .hbm, ⟨51, _⟩ => ⟨S16x8192x1, .f32⟩
  | .hbm, ⟨52, _⟩ => ⟨S16x8192x1, .f32⟩
  | .hbm, ⟨53, _⟩ => ⟨S16x8192x5, .f32⟩
  | .hbm, ⟨54, _⟩ => ⟨S_, .f32⟩
  | .hbm, ⟨55, _⟩ => ⟨S16x8192x5, .f32⟩
  | .hbm, ⟨56, _⟩ => ⟨S16x8192x5, .f32⟩
  | .hbm, ⟨57, _⟩ => ⟨S16x8192x128, .f32⟩
  | .hbm, ⟨58, _⟩ => ⟨S_, .f32⟩
  | .hbm, ⟨59, _⟩ => ⟨S16x8192x128, .f32⟩
  | .hbm, ⟨60, _⟩ => ⟨S16x8192x128, .f32⟩
  | .hbm, ⟨61, _⟩ => ⟨S16x8192x1, .f32⟩
  | .hbm, ⟨62, _⟩ => ⟨S16x8192x128, .f32⟩
  | .hbm, ⟨63, _⟩ => ⟨S16x8192x128, .f32⟩
  | .hbm, ⟨64, _⟩ => ⟨S16x8192x128, .f32⟩
  | .hbm, ⟨65, _⟩ => ⟨S_, .f32⟩
  | .hbm, ⟨66, _⟩ => ⟨S16x8192x128, .f32⟩
  | .hbm, ⟨67, _⟩ => ⟨S16x8192x128, .f32⟩
  | .hbm, ⟨68, _⟩ => ⟨S16x8192x128x1, .f32⟩
  | .hbm, ⟨69, _⟩ => ⟨S16x8192x1x3, .f32⟩
  | .hbm, ⟨70, _⟩ => ⟨S16x8192x128x3, .f32⟩
  | .hbm, ⟨71, _⟩ => ⟨S16x8192x128x3, .f32⟩
  | .hbm, ⟨72, _⟩ => ⟨S16x8192x128x3, .f32⟩
  | .hbm, ⟨73, _⟩ => ⟨S16x8192x384, .f32⟩
  | .hbm, ⟨74, _⟩ => ⟨S16x8192x512, .f32⟩
  | .hbm, ⟨75, _⟩ => ⟨S_, .f32⟩
  | .hbm, ⟨76, _⟩ => ⟨S16x512, .f32⟩
  | .hbm, ⟨77, _⟩ => ⟨S_, .f32⟩
  | .hbm, ⟨78, _⟩ => ⟨S16x512, .f32⟩
  | .hbm, ⟨79, _⟩ => ⟨S16x512, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]

class Facts₀ : Prop where
  reducesTo_S16x8192x3_S16x8192_d2 : S16x8192x3.ReducesTo [2] S16x8192
  h_S_ : 0 < S_.numel
  bcast_S16x8192_S16x8192x1_0_1 : S16x8192.BroadcastsInDim S16x8192x1 (![0, 1] : Fin 2 → Fin S16x8192x1.rank)
  bcast_S16x8192x1_S16x8192x3_0_1_2 : S16x8192x1.BroadcastsInDim S16x8192x3 (![0, 1, 2] : Fin 3 → Fin S16x8192x3.rank)
  slices_S16x8192x3_S16x8192x1_0_0_0 : S16x8192x3.Slices ![0, 0, 0] S16x8192x1
  shapeCasts_S16x8192x1_S16x8192 : S16x8192x1.ShapeCasts S16x8192
  slices_S16x8192x3_S16x8192x1_0_0_1 : S16x8192x3.Slices ![0, 0, 1] S16x8192x1
  slices_S16x8192x3_S16x8192x1_0_0_2 : S16x8192x3.Slices ![0, 0, 2] S16x8192x1
  bcast_S_S16x8192 : S_.BroadcastsInDim S16x8192 (![] : Fin 0 → Fin S16x8192.rank)
  bcast_S_S16x8192x3 : S_.BroadcastsInDim S16x8192x3 (![] : Fin 0 → Fin S16x8192x3.rank)
  concatenates_S16x8192x1_S16x8192x1_S16x8192x1_S16x8192x1_S16x8192x1_S16x8192x5_d2 : Shape.Concatenates [S16x8192x1, S16x8192x1, S16x8192x1, S16x8192x1, S16x8192x1] S16x8192x5 2
  bcast_S_S16x8192x5 : S_.BroadcastsInDim S16x8192x5 (![] : Fin 0 → Fin S16x8192x5.rank)
  bcast_S_S16x8192x128 : S_.BroadcastsInDim S16x8192x128 (![] : Fin 0 → Fin S16x8192x128.rank)
  bcast_S16x8192x1_S16x8192x128_0_1_2 : S16x8192x1.BroadcastsInDim S16x8192x128 (![0, 1, 2] : Fin 3 → Fin S16x8192x128.rank)
  bcast_S16x8192x128_S16x8192x128x1_0_1_2 : S16x8192x128.BroadcastsInDim S16x8192x128x1 (![0, 1, 2] : Fin 3 → Fin S16x8192x128x1.rank)
  bcast_S16x8192x3_S16x8192x1x3_0_1_3 : S16x8192x3.BroadcastsInDim S16x8192x1x3 (![0, 1, 3] : Fin 3 → Fin S16x8192x1x3.rank)
  bcast_S16x8192x128x1_S16x8192x128x3_0_1_2_3 : S16x8192x128x1.BroadcastsInDim S16x8192x128x3 (![0, 1, 2, 3] : Fin 4 → Fin S16x8192x128x3.rank)
  bcast_S16x8192x1x3_S16x8192x128x3_0_1_2_3 : S16x8192x1x3.BroadcastsInDim S16x8192x128x3 (![0, 1, 2, 3] : Fin 4 → Fin S16x8192x128x3.rank)
  shapeCasts_S16x8192x128x3_S16x8192x384 : S16x8192x128x3.ShapeCasts S16x8192x384
  concatenates_S16x8192x128_S16x8192x384_S16x8192x512_d2 : Shape.Concatenates [S16x8192x128, S16x8192x384] S16x8192x512 2
  reducesTo_S16x8192x512_S16x512_d1 : S16x8192x512.ReducesTo [1] S16x512
  bcast_S_S16x512 : S_.BroadcastsInDim S16x512 (![] : Fin 0 → Fin S16x512.rank)
  dot_S16x8192x64_S64x128_S16x8192x128_2_0_01_1_n_n_wf : DotDims.WF S16x8192x64 S64x128 S16x8192x128 [2] [0] [0, 1] [1] [] []

variable [Facts₀]

def dot_S16x8192x64_S64x128_S16x8192x128_2_0_01_1_n_n : DotDims S16x8192x64 S64x128 S16x8192x128 where
  lhsContracting := [2]
  rhsContracting := [0]
  lhsNonContracting := [0, 1]
  rhsNonContracting := [1]
  lhsBatch := []
  rhsBatch := []
  wf := dot_S16x8192x64_S64x128_S16x8192x128_2_0_01_1_n_n_wf

class Facts : Prop extends Facts₀ where

variable [Facts]
-- ==== Proof.StepValues.lean ====
/-
  What one grid step of the pooling kernel leaves behind, as values.

  The kernel keeps a running total `acc` of shape [8, 256] for its 8 batch rows: at every step it adds the step's
  partial sums `contrib` (one [8, 256] block computed from the step's 2048 points) to `acc`; at the first of the four
  steps over a batch chunk `acc` starts from zero, and at the last step the output block [8, 512] is computed from
  the finished total and the two weight matrices.  Here the three kinds of step are read back:
  after a first step the total is `0 + contrib`, after any other step `acc + contrib`, and a last step's output
  block is the epilogue of `acc + contrib`.
-/
import proofs.«149502_j47502338294715_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Pool.Kern
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step that is neither first nor last leaves `acc + contrib` in the running total. -/
theorem scratch_B (c : Dev nD) (i : grid0.Coords) (arg2 : Memref sig .tc .vmem S8x2048x64 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S8x512 .f32) (harg8 : arg8.IsWhole) (arg9 : Memref sig .tc .vmem S8x256 .f32) (harg9 : arg9.IsWhole) (hc0 : ¬cond0_0 i) (hc1 : ¬cond0_1 i) (x0 : Vec F S8x2048x64 .f32) (x1 : Vec F S8x2048 .f32) (x2 : Vec F S8x2048 .f32) (x3 : Vec F S8x2048 .f32) (x4 : Vec F S64x128 .f32) (x5 : Vec F S64x128 .f32) (xs0 : Vec F S8x256 .f32) :
    sout0_B_0 c i arg2 harg2 arg3 harg3 arg4 harg4 arg5 harg5 arg6 harg6 arg7 harg7 arg8 harg8 arg9 harg9 hc0 hc1 x0 x1 x2 x3 x4 x5 xs0 = k0_pay1 (k0_pay4 x1 x2 x3 x0) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S8x256) hz2]
  simp only [View.readAt_eq_ld, harg2.read_unread, harg3.read_unread, harg4.read_unread, harg5.read_unread, harg9.read_unread,
    View.ld_unit_zero (S := S8x256) hz2, View.ld_unit_zero (S := S8x2048) hz2, View.ld_unit_zero (S := S8x2048x64) hz3]

/-- A last step leaves `acc + contrib` in the running total as well. -/
theorem scratch_C (c : Dev nD) (i : grid0.Coords) (arg2 : Memref sig .tc .vmem S8x2048x64 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S8x512 .f32) (harg8 : arg8.IsWhole) (arg9 : Memref sig .tc .vmem S8x256 .f32) (harg9 : arg9.IsWhole) (hc0 : ¬cond0_0 i) (hc1 : cond0_1 i) (x0 : Vec F S8x2048x64 .f32) (x1 : Vec F S8x2048 .f32) (x2 : Vec F S8x2048 .f32) (x3 : Vec F S8x2048 .f32) (x4 : Vec F S64x128 .f32) (x5 : Vec F S64x128 .f32) (xs0 : Vec F S8x256 .f32) :
    sout0_C_0 c i arg2 harg2 arg3 harg3 arg4 harg4 arg5 harg5 arg6 harg6 arg7 harg7 arg8 harg8 arg9 harg9 hc0 hc1 x0 x1 x2 x3 x4 x5 xs0 = k0_pay1 (k0_pay4 x1 x2 x3 x0) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S8x256) hz2]
  simp only [View.readAt_eq_ld, harg2.read_unread, harg3.read_unread, harg4.read_unread, harg5.read_unread, harg9.read_unread,
    View.ld_unit_zero (S := S8x256) hz2, View.ld_unit_zero (S := S8x2048) hz2, View.ld_unit_zero (S := S8x2048x64) hz3]

/-- A last step's output block is the epilogue of the finished total `acc + contrib` and the two weight matrices. -/
theorem out_C (c : Dev nD) (i : grid0.Coords) (arg2 : Memref sig .tc .vmem S8x2048x64 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S8x512 .f32) (harg8 : arg8.IsWhole) (arg9 : Memref sig .tc .vmem S8x256 .f32) (harg9 : arg9.IsWhole) (hc0 : ¬cond0_0 i) (hc1 : cond0_1 i) (x0 : Vec F S8x2048x64 .f32) (x1 : Vec F S8x2048 .f32) (x2 : Vec F S8x2048 .f32) (x3 : Vec F S8x2048 .f32) (x4 : Vec F S64x128 .f32) (x5 : Vec F S64x128 .f32) (xs0 : Vec F S8x256 .f32) :
    out0_C_6 c i arg2 harg2 arg3 harg3 arg4 harg4 arg5 harg5 arg6 harg6 arg7 harg7 arg8 harg8 arg9 harg9 hc0 hc1 x0 x1 x2 x3 x4 x5 xs0 = k0_pay2 (k0_pay1 (k0_pay4 x1 x2 x3 x0) xs0) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S8x512) hz2]
  simp only [View.readAt_eq_ld, harg2.read_unread, harg3.read_unread, harg4.read_unread, harg5.read_unread, harg6.read_unread, harg7.read_unread, harg9.read_unread,
    View.ld_unit_zero (S := S8x256) hz2, View.ld_unit_zero (S := S8x2048) hz2, View.ld_unit_zero (S := S8x2048x64) hz3, View.ld_unit_zero (S := S64x128) hz2,
    View.readCov_unit_zero (S := S8x256) _ hz2]

/-- A first step stores the zero block, reads it back, and leaves `0 + contrib`. -/
theorem scratch_A (c : Dev nD) (i : grid0.Coords) (arg2 : Memref sig .tc .vmem S8x2048x64 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S8x512 .f32) (harg8 : arg8.IsWhole) (arg9 : Memref sig .tc .vmem S8x256 .f32) (harg9 : arg9.IsWhole) (hc0 : cond0_0 i) (hc1 : ¬cond0_1 i) (x0 : Vec F S8x2048x64 .f32) (x1 : Vec F S8x2048 .f32) (x2 : Vec F S8x2048 .f32) (x3 : Vec F S8x2048 .f32) (x4 : Vec F S64x128 .f32) (x5 : Vec F S64x128 .f32) :
    sout0_A_0 c i arg2 harg2 arg3 harg3 arg4 harg4 arg5 harg5 arg6 harg6 arg7 harg7 arg8 harg8 arg9 harg9 hc0 hc1 x0 x1 x2 x3 x4 x5 = k0_pay1 (k0_pay4 x1 x2 x3 x0) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S8x256) hz2, View.readCov_unit_zero (S := S8x256) _ hz2]
  simp only [View.readAt_eq_ld, harg2.read_unread, harg3.read_unread, harg4.read_unread, harg5.read_unread,
    View.ld_unit_zero (S := S8x2048) hz2, View.ld_unit_zero (S := S8x2048x64) hz3]

end Cert.Pool.Kern

end
-- ==== Proof.RunningTotal.lean ====
/-
  The running total after each grid step, and the output block of a last step, as values.

  Over the four steps of a batch chunk the total is `((0 + s₀) + s₁) + s₂) + s₃` of the steps' partial sums, started
  afresh at the first step of each chunk; the output block written back at the chunk's last step is the epilogue of that
  total.
-/
import proofs.«149502_j47502338294715_2_alg».proof.Proof.Gen.KernelIdeal.Frame
import proofs.«149502_j47502338294715_2_alg».proof.Proof.StepValues
import Idealize.ShloMosaic.Lib.Pipeline.Value

noncomputable section

open Idealize.ShloMosaic Idealize.ShloMosaic.TcCoe Idealize.SL.Sem
open Idealize.ShloMosaic.Pipeline (Dat)

namespace Cert.Pool.Kern
open Cert.KernelIdeal Cert.KernelIdeal.Gen
variable {F : FTy → Type} [FloatOps F]
variable (m : (ℓ : Loc nD τ sig) → Buf (Elt F) ℓ)

/-- The partial sums of step `t`: the step's arithmetic on the blocks its windows hand it. -/
def contribAt (c : Dev nD) (t : Fin cfg0.N) : FVec F S8x256 .f32 :=
  k0_pay4 (iblk m c 1 t) (iblk m c 2 t) (iblk m c 3 t) (iblk m c 0 t)

/-- The running total after step `n`. -/
def accVal (c : Dev nD) : (n : ℕ) → n < cfg0.N → Vec F S8x256 .f32
  | 0, h => k0_pay1 (contribAt m c ⟨0, h⟩) (k0_pay3 (F := F))
  | n + 1, h =>
    if (n + 1) % 4 = 0 then k0_pay1 (contribAt m c ⟨n + 1, h⟩) (k0_pay3 (F := F))
    else k0_pay1 (contribAt m c ⟨n + 1, h⟩) (accVal c n (Nat.lt_of_succ_lt h))

/-- At the first step of a chunk the total starts from the zero block. -/
theorem accVal_first (c : Dev nD) (t : Fin cfg0.N) (h0 : t.val % 4 = 0) :
    accVal m c t.val t.isLt = k0_pay1 (contribAt m c t) (k0_pay3 (F := F)) := by
  obtain ⟨n, hn⟩ := t
  cases n with
  | zero => rfl
  | succ n => exact (by rw [accVal, if_pos h0] : accVal m c (n + 1) hn = _)

/-- At any other step it adds the step's partial sums to the total before. -/
theorem accVal_next (c : Dev nD) (t : Fin cfg0.N) (h0 : ¬t.val % 4 = 0) :
    accVal m c t.val t.isLt = k0_pay1 (contribAt m c t) (accVal m c (t.val - 1) (Nat.lt_of_le_of_lt (Nat.sub_le _ _) t.isLt)) := by
  obtain ⟨n, hn⟩ := t
  cases n with
  | zero => exact absurd rfl h0
  | succ n => exact (by rw [accVal, if_neg h0] : accVal m c (n + 1) hn = _)

/-- The scratch after a chunk's first step. -/
theorem scratch_first (c : Dev nD) (t : Fin cfg0.N) (h0 : t.val % 4 = 0) (h1 : ¬t.val % 4 = 3) :
    (outsAt0 m c t.val t.isLt).2 = k0_pay1 (contribAt m c t) (k0_pay3 (F := F)) := by
  rw [outsAt0_A m c t h0 h1]
  dsimp only
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun hh => h1 ((hcond0_1 t).mp hh)) (iblk m c 0 t) (iblk m c 1 t) (iblk m c 2 t) (iblk m c 3 t) (iblk m c 4 t) (iblk m c 5 t)

/-- The scratch after a step that is neither first nor last, over what the step before left. -/
theorem scratch_mid (c : Dev nD) (t : Fin cfg0.N) (h0 : ¬t.val % 4 = 0) (h1 : ¬t.val % 4 = 3) :
    (outsAt0 m c t.val t.isLt).2 = k0_pay1 (contribAt m c t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) (fun hh => h1 ((hcond0_1 t).mp hh)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- The scratch after a chunk's last step, over what the step before left. -/
theorem scratch_last (c : Dev nD) (t : Fin cfg0.N) (h0 : ¬t.val % 4 = 0) (h1 : t.val % 4 = 3) :
    (outsAt0 m c t.val t.isLt).2 = k0_pay1 (contribAt m c t) (outsAt0 m c (t.val - 1) (Nat.lt_of_le_of_lt (Nat.sub_le _ _) t.isLt)).2 := by
  rw [outsAt0_C m c t h0 h1]
  dsimp only
  exact scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- The output block of a chunk's last step, over what the step before left in the scratch. -/
theorem out_last (c : Dev nD) (t : Fin cfg0.N) (h0 : ¬t.val % 4 = 0) (h1 : t.val % 4 = 3) :
    (outsAt0 m c t.val t.isLt).1 = k0_pay2 (k0_pay1 (contribAt m c t) (outsAt0 m c (t.val - 1) (Nat.lt_of_le_of_lt (Nat.sub_le _ _) t.isLt)).2) (iblk m c 4 t) (iblk m c 5 t) := by
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- What the kernel's scratch holds after a step is the running total. -/
theorem scratch_eq (c : Dev nD) (n : ℕ) : ∀ (t : Fin cfg0.N), t.val = n → (outsAt0 m c t.val t.isLt).2 = accVal m c t.val t.isLt := by
  induction n with
  | zero =>
    intro t ht
    have h0 : t.val % 4 = 0 := by omega
    rw [scratch_first m c t h0 (by omega), accVal_first m c t h0]
  | succ n ih =>
    intro t ht
    by_cases h0 : t.val % 4 = 0
    · rw [scratch_first m c t h0 (by omega), accVal_first m c t h0]
    · have ih' : (outsAt0 m c (t.val - 1) (Nat.lt_of_le_of_lt (Nat.sub_le _ _) t.isLt)).2 = accVal m c (t.val - 1) (Nat.lt_of_le_of_lt (Nat.sub_le _ _) t.isLt) :=
        ih (⟨t.val - 1, Nat.lt_of_le_of_lt (Nat.sub_le _ _) t.isLt⟩ : Fin cfg0.N) (by show t.val - 1 = n; omega)
      by_cases h1 : t.val % 4 = 3
      · rw [scratch_last m c t h0 h1, accVal_next m c t h0, ih']
      · rw [scratch_mid m c t h0 h1, accVal_next m c t h0, ih']

/-- The output block of a chunk's last step is the epilogue of the running total after that step. -/
theorem out_eq (c : Dev nD) (t : Fin cfg0.N) (h1 : t.val % 4 = 3) :
    (outsAt0 m c t.val t.isLt).1 = k0_pay2 (accVal m c t.val t.isLt) (iblk m c 4 t) (iblk m c 5 t) := by
  have h0 : ¬t.val % 4 = 0 := by omega
  have ih : (outsAt0 m c (t.val - 1) (Nat.lt_of_le_of_lt (Nat.sub_le _ _) t.isLt)).2 = accVal m c (t.val - 1) (Nat.lt_of_le_of_lt (Nat.sub_le _ _) t.isLt) :=
    scratch_eq m c (t.val - 1) (⟨t.val - 1, Nat.lt_of_le_of_lt (Nat.sub_le _ _) t.isLt⟩ : Fin cfg0.N) rfl
  rw [out_last m c t h0 h1, accVal_next m c t h0, ih]

end Cert.Pool.Kern

end
-- ==== Proof.BlockReads.lean ====
/-
  The layout operations of the pooling kernel's body, each read at an index given by its coordinates.

  A sum over the 2048 points of a block [8, 2048, 64] (the middle axis); a per-point factor [8, 2048] laid out as a
  column [8, 2048, 1] and copied along the 64 features; four [8, 64] blocks laid side by side as [8, 256].
-/
import proofs.«149502_j47502338294715_2_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.Pool.Kern
open Cert.KernelIdeal Idealize.ShloMosaic.ValueIdx
open scoped BigOperators

variable [Cert.KernelIdeal.Facts]
open Cert.KernelIdeal.Facts₀ Cert.KernelIdeal.Facts

/-- The sum over the points of a block, at batch row `r` and feature `u`. -/
theorem lane_sum (y : FVec Ideal S8x2048x64 .f32) (r : Fin 8) (u : Fin 64) :
    multiReduction (F := Ideal) .add [1] S8x64 y 0x00000000#32 reduces_S8x2048x64_S8x64 (.inl rfl) rfl (ix2 r u)
      = ∑ q : Fin 2048, y (ix3 r q u) := by
  refine (Ideal.multiReduction_add_single y 0x00000000#32 reduces_S8x2048x64_S8x64 (.inl rfl) rfl (ix2 r u)).trans ?_
  show ∑ q : Fin 2048, y (reduces_S8x2048x64_S8x64.lift (ix2 r u) q) = ∑ q : Fin 2048, y (ix3 r q u)
  refine Finset.sum_congr rfl fun q _ => congrArg y (funext fun a => Fin.ext ?_)
  match a with
  | ⟨0, _⟩ => rfl
  | ⟨1, _⟩ => rfl
  | ⟨2, _⟩ => rfl

/-- A per-point factor copied along the features: at `(r, q, u)` it is the factor of point `(r, q)`. -/
theorem column_copy (v : FVec Ideal S8x2048 .f32) (r : Fin 8) (q : Fin 2048) (u : Fin 64) :
    broadcastTo S8x2048x64 (shapeCast S8x2048x1 v shapeCasts_S8x2048_S8x2048x1) broadcasts_S8x2048x1_S8x2048x64 (ix3 r q u)
      = v (ix2 r q) := by
  refine (broadcastTo_apply _ _ (ix3 r q u) (ix3 r q (0 : Fin 1)) (fun a => ?_)).trans ?_
  · match a with
    | ⟨0, _⟩ => rfl
    | ⟨1, _⟩ => rfl
    | ⟨2, _⟩ => rfl
  · refine shapeCast_apply _ _ (ix3 r q (0 : Fin 1)) (ix2 r q) ?_
    rw [Shape.rowMajor_val_two, Shape.rowMajor_val_three]
    show r.val * 2048 + q.val = (r.val * 2048 + q.val) * 1 + 0
    omega

/-- Four [8, 64] blocks side by side: column `64·k + u` of the result is column `u` of block `k`. -/
theorem side_by_side (a0 a1 a2 a3 : FVec Ideal S8x64 .f32) (r : Fin 8) (k : Fin 4) (u : Fin 64) (j : Fin 256) (hj : j.val = 64 * k.val + u.val) :
    concatenate S8x256 1 [⟨S8x64, a0⟩, ⟨S8x64, a1⟩, ⟨S8x64, a2⟩, ⟨S8x64, a3⟩] concatenates_S8x64_S8x64_S8x64_S8x64_S8x256_d1 (ix2 r j)
      = (![a0, a1, a2, a3] k) (ix2 r u) := by
  have hi : ∀ b : Fin S8x64.rank, b.cast (rfl : S8x64.rank = S8x256.rank) ≠ (1 : Fin S8x256.rank) →
      ((ix2 r u : S8x64.Idx) b).val = ((ix2 r j : S8x256.Idx) (b.cast rfl)).val := fun b hb => by
    match b with
    | ⟨0, _⟩ => rfl
    | ⟨1, _⟩ => exact absurd rfl hb
  fin_cases k
  · exact concatenate_apply_piece (1 : Fin S8x256.rank) _ _ (ix2 r j) 0 (by simp) S8x64 a0 rfl rfl 0 rfl (ix2 r u) hi (by show 0 + u.val = j.val; simp at hj; omega)
  · exact concatenate_apply_piece (1 : Fin S8x256.rank) _ _ (ix2 r j) 1 (by simp) S8x64 a1 rfl rfl 64 rfl (ix2 r u) hi (by show 64 + u.val = j.val; simp at hj; omega)
  · exact concatenate_apply_piece (1 : Fin S8x256.rank) _ _ (ix2 r j) 2 (by simp) S8x64 a2 rfl rfl 128 rfl (ix2 r u) hi (by show 128 + u.val = j.val; simp at hj; omega)
  · exact concatenate_apply_piece (1 : Fin S8x256.rank) _ _ (ix2 r j) 3 (by simp) S8x64 a3 rfl rfl 192 rfl (ix2 r u) hi (by show 192 + u.val = j.val; simp at hj; omega)

end Cert.Pool.Kern

end
-- ==== Proof.PoolSpec.lean ====
/-
  The mathematics of the equivariant pooling layer, stated once for both programs.

  Arguments: features `f[b,n,u]` (16 × 8192 × 64), positions `p[b,n,k]` (16 × 8192 × 3) and two weight
  matrices `W₀[u,w]`, `W₁[u,w]` (64 × 128).  With `d[b,n,k] = √3 · p[b,n,k] · (p[b,n,0]² + p[b,n,1]² + p[b,n,2]²)^(-1/2)`
  (the first-order real spherical harmonic of the direction of `p[b,n,·]`), the result is the array `[16, 512]`

      out[b, w]             = mean over n of  (1/8) · (Σ_u f[b,n,u] · W₀[u,w])                  (w < 128)
      out[b, 128 + 3·w + k] = mean over n of  (1/8) · (Σ_u f[b,n,u] · W₁[u,w]) · d[b,n,k]       (w < 128, k < 3).

  Two arrangements of it are written below over the extended reals.  `pooled` averages first and contracts
  with the weights afterwards: the mean over `n` of `f[b,n,u]` (and of `f[b,n,u] · d[b,n,k]`) is taken
  per feature `u`, and the 64 means are then contracted with a weight column.  `averaged` contracts every point's
  64 features with the weight column first, multiplies by `d[b,n,k]`, and takes the mean over `n` last.  That the
  two agree when every entry is a real number is the distributive law (Proof/PoolLaw.lean).
-/
import Idealize.ShloMosaic.PureOps.Ideal
import Idealize.ShloMosaic.Lib.ValueIdx

noncomputable section

namespace Cert.Pool

open Idealize.ShloMosaic Idealize.ShloMosaic.ValueIdx
open scoped BigOperators

/-- The four constants both programs spell, as the extended reals their words denote. -/
def root3 : EReal := Ideal.ofBits .f32 0x3FDDB3D7#32
def eighth : EReal := Ideal.ofBits .f32 0x3E000000#32
def count : EReal := Ideal.ofBits .f32 0x46000000#32
def unit : EReal := Ideal.ofBits .f32 0x3F800000#32

variable (f : (⟨3, ![16, 8192, 64]⟩ : Shape).Idx → EReal) (p : (⟨3, ![16, 8192, 3]⟩ : Shape).Idx → EReal)
variable (w0 w1 : (⟨2, ![64, 128]⟩ : Shape).Idx → EReal)

/-- Column `j ≥ 128` of the result is component `(j - 128) % 3` of output channel `(j - 128) / 3`. -/
def chan (j : Fin 512) (h : ¬ j.val < 128) : Fin 128 := ⟨(j.val - 128) / 3, by have := j.isLt; omega⟩
def comp (j : Fin 512) : Fin 3 := ⟨(j.val - 128) % 3, Nat.mod_lt _ (by decide)⟩

/-! ### Averaging first -/

/-- The squared length of position `(b, n)`, the three squares added left to right. -/
def sqLen (b : Fin 16) (n : Fin 8192) : EReal :=
  p (ix3 b n 0) * p (ix3 b n 0) + p (ix3 b n 1) * p (ix3 b n 1) + p (ix3 b n 2) * p (ix3 b n 2)

/-- `d[b,n,k]`, as `(√3 · p) · rsqrt |p|²`. -/
def dir (b : Fin 16) (n : Fin 8192) (k : Fin 3) : EReal :=
  root3 * p (ix3 b n k) * Ideal.rsqrt (sqLen p b n)

/-- The mean over `n` of feature `u` of batch entry `b`. -/
def meanFeat (b : Fin 16) (u : Fin 64) : EReal :=
  Ideal.div (∑ n : Fin 8192, f (ix3 b n u)) count

/-- The mean over `n` of feature `u` weighted by direction component `k`. -/
def meanDir (b : Fin 16) (u : Fin 64) (k : Fin 3) : EReal :=
  Ideal.div (∑ n : Fin 8192, f (ix3 b n u) * dir p b n k) count

def pooledAt (b : Fin 16) (j : Fin 512) : EReal :=
  if h : j.val < 128 then eighth * ∑ u : Fin 64, meanFeat f b u * w0 (ix2 u ⟨j.val, h⟩)
  else eighth * ∑ u : Fin 64, meanDir f p b u (comp j) * w1 (ix2 u (chan j h))

/-- The result, the means taken before the contraction with the weights. -/
def pooled : (⟨2, ![16, 512]⟩ : Shape).Idx → EReal := fun i => pooledAt f p w0 w1 (i 0) (i 1)

/-! ### Averaging last -/

/-- The squared length as a sum over the three components. -/
def sqLenSum (b : Fin 16) (n : Fin 8192) : EReal := ∑ k : Fin 3, p (ix3 b n k) * p (ix3 b n k)

/-- `d[b,n,k]`, as `√3 · (p · rsqrt |p|²)`. -/
def dirSum (b : Fin 16) (n : Fin 8192) (k : Fin 3) : EReal :=
  root3 * (p (ix3 b n k) * Ideal.rsqrt (sqLenSum p b n))

/-- Column `j` of point `(b, n)`'s latent vector. -/
def latentAt (b : Fin 16) (n : Fin 8192) (j : Fin 512) : EReal :=
  if h : j.val < 128 then eighth * (∑ u : Fin 64, f (ix3 b n u) * w0 (ix2 u ⟨j.val, h⟩)) * unit
  else eighth * (∑ u : Fin 64, f (ix3 b n u) * w1 (ix2 u (chan j h))) * dirSum p b n (comp j)

def averagedAt (b : Fin 16) (j : Fin 512) : EReal :=
  Ideal.div (∑ n : Fin 8192, latentAt f p w0 w1 b n j) count

/-- The result, the mean over the points taken last. -/
def averaged : (⟨2, ![16, 512]⟩ : Shape).Idx → EReal := fun i => averagedAt f p w0 w1 (i 0) (i 1)

end Cert.Pool

end
-- ==== Proof.StepSums.lean ====
/-
  One grid step's partial sums, entry by entry.

  A step sees 2048 points of 8 batch rows: a feature block `x0 [8, 2048, 64]` and the three position components
  `x1 x2 x3 [8, 2048]`.  Its partial sums form an [8, 256] block: column `u` holds `Σ_q x0[r,q,u]`, and column
  `64·(k+1) + u` holds `Σ_q x0[r,q,u] · d_k[r,q]` with `d_k = (√3 · x_k) · rsqrt(x1² + x2² + x3²)`.
-/
import proofs.«149502_j47502338294715_2_alg».proof.Proof.Gen.KernelIdeal.Skeleton
import proofs.«149502_j47502338294715_2_alg».proof.Proof.BlockReads
import proofs.«149502_j47502338294715_2_alg».proof.Proof.PoolSpec

noncomputable section

open Idealize.ShloMosaic Idealize.ShloMosaic.TcCoe Idealize.SL.Sem
open Idealize.ShloMosaic.Pipeline (Dat)

namespace Cert.Pool.Kern
open Cert.KernelIdeal Cert.KernelIdeal.Gen Idealize.ShloMosaic.ValueIdx
open scoped BigOperators

variable [Cert.KernelIdeal.Facts]

/-- Direction component `k` of point `(r, q)` of a block. -/
def blkDir (x1 x2 x3 : FVec Ideal S8x2048 .f32) (k : Fin 3) (r : Fin 8) (q : Fin 2048) : EReal :=
  Cert.Pool.root3 * (![x1, x2, x3] k) (ix2 r q)
    * Ideal.rsqrt (x1 (ix2 r q) * x1 (ix2 r q) + x2 (ix2 r q) * x2 (ix2 r q) + x3 (ix2 r q) * x3 (ix2 r q))

/-- The term point `q` contributes to column `64·kk + u` of row `r`. -/
def blkTerm (x0 : FVec Ideal S8x2048x64 .f32) (x1 x2 x3 : FVec Ideal S8x2048 .f32) (kk : Fin 4) (r : Fin 8) (u : Fin 64) (q : Fin 2048) : EReal :=
  if h : kk.val = 0 then x0 (ix3 r q u) else x0 (ix3 r q u) * blkDir x1 x2 x3 ⟨kk.val - 1, by omega⟩ r q

/-- The weighted feature block of one direction component, read at a point and a feature. -/
theorem weighted_apply (x0 : FVec Ideal S8x2048x64 .f32) (v : FVec Ideal S8x2048 .f32) (r : Fin 8) (q : Fin 2048) (u : Fin 64) :
    mulf x0 (broadcastTo S8x2048x64 (shapeCast S8x2048x1 v Facts₀.shapeCasts_S8x2048_S8x2048x1) Facts₀.broadcasts_S8x2048x1_S8x2048x64) (ix3 r q u)
      = x0 (ix3 r q u) * v (ix2 r q) :=
  congrArg (x0 (ix3 r q u) * ·) (column_copy v r q u)

theorem contrib_apply (x0 : FVec Ideal S8x2048x64 .f32) (x1 x2 x3 : FVec Ideal S8x2048 .f32) (r : Fin 8) (kk : Fin 4) (u : Fin 64)
    (j : Fin 256) (hj : j.val = 64 * kk.val + u.val) :
    k0_pay4 (F := Ideal) x1 x2 x3 x0 (ix2 r j) = ∑ q : Fin 2048, blkTerm x0 x1 x2 x3 kk r u q := by
  unfold k0_pay4
  refine (side_by_side _ _ _ _ r kk u j hj).trans ?_
  fin_cases kk
  · refine (lane_sum _ r u).trans (Finset.sum_congr rfl fun q _ => ?_)
    unfold blkTerm; rw [dif_pos rfl]
  · refine (lane_sum _ r u).trans (Finset.sum_congr rfl fun q _ => ?_)
    refine (weighted_apply x0 _ r q u).trans ?_
    unfold blkTerm blkDir; rw [dif_neg (by decide)]
    simp only [shapeCast_self]
    rfl
  · refine (lane_sum _ r u).trans (Finset.sum_congr rfl fun q _ => ?_)
    refine (weighted_apply x0 _ r q u).trans ?_
    unfold blkTerm blkDir; rw [dif_neg (by decide)]
    simp only [shapeCast_self]
    rfl
  · refine (lane_sum _ r u).trans (Finset.sum_congr rfl fun q _ => ?_)
    refine (weighted_apply x0 _ r q u).trans ?_
    unfold blkTerm blkDir; rw [dif_neg (by decide)]
    simp only [shapeCast_self]
    rfl

/-- Adding a step's partial sums to the running total, entry by entry. -/
theorem add_apply (v38 : FVec Ideal S8x256 .f32) (v39 : Vec Ideal S8x256 .f32) (i : S8x256.Idx) :
    k0_pay1 (F := Ideal) v38 v39 i = v39 i + v38 i := by
  unfold k0_pay1
  simp only [shapeCast_self]
  rfl

/-- The block the running total starts from is zero everywhere. -/
theorem start_apply (i : S8x256.Idx) : k0_pay3 (F := Ideal) i = 0 := by
  unfold k0_pay3
  simp only [shapeCast_self]
  exact Ideal.ofBits_zero_f32

end Cert.Pool.Kern

end
-- ==== Proof.Epilogue.lean ====
/-
  The output block of a last step, entry by entry.

  From the finished total `acc [8, 256]` (four groups of 64 columns) and the weights `w0 w1 [64, 128]`: with
  `M[r, c] = acc[r, c] / 8192`, column `c < 128` of the output is `(1/8) · Σ_u M[r, u] · w0[u, c]`, and column
  `128 + 3·w + k` is `(1/8) · Σ_u M[r, 64·(k+1) + u] · w1[u, w]`: the three direction components of channel `w` sit
  next to each other.
-/
import proofs.«149502_j47502338294715_2_alg».proof.Proof.Gen.KernelIdeal.Skeleton
import proofs.«149502_j47502338294715_2_alg».proof.Proof.BlockReads
import proofs.«149502_j47502338294715_2_alg».proof.Proof.PoolSpec

noncomputable section

open Idealize.ShloMosaic Idealize.ShloMosaic.TcCoe Idealize.SL.Sem
open Idealize.ShloMosaic.Pipeline (Dat)

namespace Cert.Pool.Kern
open Cert.KernelIdeal Cert.KernelIdeal.Gen Idealize.ShloMosaic.ValueIdx
open scoped BigOperators

variable [Cert.KernelIdeal.Facts]

local notation "DD" => dot_S8x64_S64x128_S8x128_1_0_0_1_n_n

theorem lhs_row (i : S8x128.Idx) (q : dot_S8x64_S64x128_S8x128_1_0_0_1_n_n.contr.Idx) :
    (dot_S8x64_S64x128_S8x128_1_0_0_1_n_n.lhsIdx i q 0).val = (i 0).val := by
  unfold DotDims.lhsIdx
  rw [dif_neg (show ¬(0 : Fin S8x64.rank) ∈ dot_S8x64_S64x128_S8x128_1_0_0_1_n_n.lhsBatch by decide),
    dif_pos (show (0 : Fin S8x64.rank) ∈ dot_S8x64_S64x128_S8x128_1_0_0_1_n_n.lhsNonContracting by decide)]
  rfl

theorem rhs_col (i : S8x128.Idx) (q : dot_S8x64_S64x128_S8x128_1_0_0_1_n_n.contr.Idx) :
    (dot_S8x64_S64x128_S8x128_1_0_0_1_n_n.rhsIdx i q 1).val = (i 1).val := by
  unfold DotDims.rhsIdx
  rw [dif_neg (show ¬(1 : Fin S64x128.rank) ∈ dot_S8x64_S64x128_S8x128_1_0_0_1_n_n.rhsBatch by decide),
    dif_pos (show (1 : Fin S64x128.rank) ∈ dot_S8x64_S64x128_S8x128_1_0_0_1_n_n.rhsNonContracting by decide)]
  rfl

/-- Eight rows of 64 numbers times a [64, 128] matrix, accumulated from zero: entry `(r, c)` is the plain sum of products. -/
theorem block_product (a : FVec Ideal S8x64 .f32) (w : FVec Ideal S64x128 .f32) (r : Fin 8) (c : Fin 128) :
    matmul (F := Ideal) dot_S8x64_S64x128_S8x128_1_0_0_1_n_n none a w (constant S8x128 .f32 0x00000000#32) (ix2 r c)
      = ∑ u : Fin 64, a (ix2 r u) * w (ix2 u c) := by
  refine (Ideal.matmul_constant_zero_apply dot_S8x64_S64x128_S8x128_1_0_0_1_n_n none a w (ix2 r c)).trans ?_
  rw [← Equiv.sum_comp (contrEquiv1 dot_S8x64_S64x128_S8x128_1_0_0_1_n_n 64 rfl rfl).symm]
  refine Finset.sum_congr rfl fun k _ => ?_
  have hk := contrEquiv1_symm_val dot_S8x64_S64x128_S8x128_1_0_0_1_n_n 64 rfl rfl k
  have el : dot_S8x64_S64x128_S8x128_1_0_0_1_n_n.lhsIdx (ix2 r c) ((contrEquiv1 dot_S8x64_S64x128_S8x128_1_0_0_1_n_n 64 rfl rfl).symm k) = ix2 r k :=
    funext fun a => Fin.ext (by
      match a with
      | ⟨0, _⟩ => exact lhs_row _ _
      | ⟨1, _⟩ => exact (dot_S8x64_S64x128_S8x128_1_0_0_1_n_n.lhsIdx_val_of_single rfl _ _).trans hk)
  have er : dot_S8x64_S64x128_S8x128_1_0_0_1_n_n.rhsIdx (ix2 r c) ((contrEquiv1 dot_S8x64_S64x128_S8x128_1_0_0_1_n_n 64 rfl rfl).symm k) = ix2 k c :=
    funext fun a => Fin.ext (by
      match a with
      | ⟨0, _⟩ => exact (dot_S8x64_S64x128_S8x128_1_0_0_1_n_n.rhsIdx_val_of_single rfl _ _).trans hk
      | ⟨1, _⟩ => exact rhs_col _ _)
  rw [el, er]

/-- Three [8, 128, 1] columns stacked along the last axis: component `k` of `(r, w)` is column `k` at `(r, w)`. -/
theorem stacked (a0 a1 a2 : FVec Ideal S8x128x1 .f32) (r : Fin 8) (w : Fin 128) (k : Fin 3) :
    concatenate S8x128x3 2 [⟨S8x128x1, a0⟩, ⟨S8x128x1, a1⟩, ⟨S8x128x1, a2⟩] Facts₀.concatenates_S8x128x1_S8x128x1_S8x128x1_S8x128x3_d2 (ix3 r w k)
      = if k.val = 0 then a0 (ix3 r w (0 : Fin 1)) else if k.val = 1 then a1 (ix3 r w (0 : Fin 1)) else a2 (ix3 r w (0 : Fin 1)) := by
  have hi : ∀ (k : Fin 3) (b : Fin S8x128x1.rank), b.cast (rfl : S8x128x1.rank = S8x128x3.rank) ≠ (2 : Fin S8x128x3.rank) →
      ((ix3 r w (0 : Fin 1) : S8x128x1.Idx) b).val = ((ix3 r w k : S8x128x3.Idx) (b.cast rfl)).val := fun k b hb => by
    match b with
    | ⟨0, _⟩ => rfl
    | ⟨1, _⟩ => rfl
    | ⟨2, _⟩ => exact absurd rfl hb
  match k with
  | ⟨0, _⟩ => rw [if_pos rfl]; exact concatenate_apply_piece (2 : Fin S8x128x3.rank) _ _ (ix3 r w _) 0 (by simp) S8x128x1 a0 rfl rfl 0 rfl (ix3 r w 0) (hi _) rfl
  | ⟨1, _⟩ => rw [if_neg (by simp), if_pos rfl]; exact concatenate_apply_piece (2 : Fin S8x128x3.rank) _ _ (ix3 r w _) 1 (by simp) S8x128x1 a1 rfl rfl 1 rfl (ix3 r w 0) (hi _) rfl
  | ⟨2, _⟩ => rw [if_neg (by simp), if_neg (by simp)]; exact concatenate_apply_piece (2 : Fin S8x128x3.rank) _ _ (ix3 r w _) 2 (by simp) S8x128x1 a2 rfl rfl 2 rfl (ix3 r w 0) (hi _) rfl

/-- An [8, 128] block laid out as a column [8, 128, 1]. -/
theorem as_column (v : FVec Ideal S8x128 .f32) (r : Fin 8) (w : Fin 128) :
    shapeCast S8x128x1 v Facts₀.shapeCasts_S8x128_S8x128x1 (ix3 r w (0 : Fin 1)) = v (ix2 r w) := by
  refine shapeCast_apply _ _ (ix3 r w (0 : Fin 1)) (ix2 r w) ?_
  rw [Shape.rowMajor_val_two, Shape.rowMajor_val_three]
  show r.val * 128 + w.val = (r.val * 128 + w.val) * 1 + 0
  omega

/-- Group `g` of the averaged total, read at `(r, u)`. -/
theorem group_mean (acc : Vec Ideal S8x256 .f32) (o : Nat) (h : S8x256.Slices ![0, o] S8x64) (r : Fin 8) (u : Fin 64) (c : Fin 256) (hc : c.val = o + u.val) :
    extractStridedSlice S8x64 ![0, o] (divf acc (broadcast S8x256 (Scalar.ofBits (F := Ideal) .f32 0x46000000#32))) h (ix2 r u)
      = Ideal.div (acc (ix2 r c)) Cert.Pool.count :=
  slice2_axis1_apply o _ h r u c hc

/-- A scalar column of the output block. -/
theorem epilogue_scalar (acc : Vec Ideal S8x256 .f32) (w0 w1 : Vec Ideal S64x128 .f32) (r : Fin 8) (j : Fin 512) (h : j.val < 128) :
    k0_pay2 (F := Ideal) acc w0 w1 (ix2 r j)
      = Cert.Pool.eighth * ∑ u : Fin 64, Ideal.div (acc (ix2 r (⟨u.val, by have := u.isLt; omega⟩ : Fin 256))) Cert.Pool.count * w0 (ix2 u (⟨j.val, h⟩ : Fin 128)) := by
  unfold k0_pay2
  refine (concatenate_pair_apply_left (t := S8x512) (s₁ := S8x128) (s₂ := S8x384) (1 : Fin S8x512.rank) _ _ _ (ix2 r j) rfl (ix2 r (⟨j.val, h⟩ : Fin 128)) (fun b => ?_)).trans ?_
  · match b with
    | ⟨0, _⟩ => rfl
    | ⟨1, _⟩ => rfl
  · refine congrArg (Cert.Pool.eighth * ·) ?_
    refine (block_product _ _ r ⟨j.val, h⟩).trans (Finset.sum_congr rfl fun u _ => ?_)
    exact congrArg (· * w0 (ix2 u (⟨j.val, h⟩ : Fin 128))) (group_mean acc 0 _ r u ⟨u.val, by have := u.isLt; omega⟩ (by simp))

/-- A direction column of the output block: component `k` of channel `w`. -/
theorem epilogue_vector (acc : Vec Ideal S8x256 .f32) (w0 w1 : Vec Ideal S64x128 .f32) (r : Fin 8) (w : Fin 128) (k : Fin 3) (j : Fin 512)
    (hj : j.val = 128 + 3 * w.val + k.val) :
    k0_pay2 (F := Ideal) acc w0 w1 (ix2 r j)
      = Cert.Pool.eighth * ∑ u : Fin 64, Ideal.div (acc (ix2 r (⟨64 * (k.val + 1) + u.val, by have := u.isLt; have := k.isLt; omega⟩ : Fin 256))) Cert.Pool.count * w1 (ix2 u w) := by
  unfold k0_pay2
  have hw := w.isLt
  have hk := k.isLt
  refine (concatenate_pair_apply_right (t := S8x512) (s₁ := S8x128) (s₂ := S8x384) (1 : Fin S8x512.rank) _ _ _ (ix2 r j) rfl rfl (ix2 r (⟨3 * w.val + k.val, by omega⟩ : Fin 384)) (fun b hb => ?_) ?_).trans ?_
  · match b with
    | ⟨0, _⟩ => rfl
    | ⟨1, _⟩ => exact absurd rfl hb
  · show 3 * w.val + k.val + 128 = j.val; omega
  refine (shapeCast_apply _ _ (ix2 r (⟨3 * w.val + k.val, by omega⟩ : Fin 384)) (ix3 r w k) ?_).trans ?_
  · rw [Shape.rowMajor_val_three, Shape.rowMajor_val_two]
    show (r.val * 128 + w.val) * 3 + k.val = r.val * 384 + (3 * w.val + k.val)
    omega
  refine (stacked _ _ _ r w k).trans ?_
  match k with
  | ⟨0, _⟩ =>
    rw [if_pos rfl]
    refine (as_column _ r w).trans ?_
    refine congrArg (Cert.Pool.eighth * ·) ?_
    refine (block_product _ _ r w).trans (Finset.sum_congr rfl fun u _ => ?_)
    exact congrArg (· * w1 (ix2 u w)) (group_mean acc 64 _ r u ⟨64 * (0 + 1) + u.val, by have := u.isLt; omega⟩ (by simp))
  | ⟨1, _⟩ =>
    rw [if_neg (by simp), if_pos rfl]
    refine (as_column _ r w).trans ?_
    refine congrArg (Cert.Pool.eighth * ·) ?_
    refine (block_product _ _ r w).trans (Finset.sum_congr rfl fun u _ => ?_)
    exact congrArg (· * w1 (ix2 u w)) (group_mean acc 128 _ r u ⟨64 * (1 + 1) + u.val, by have := u.isLt; omega⟩ (by simp))
  | ⟨2, _⟩ =>
    rw [if_neg (by simp), if_neg (by simp)]
    refine (as_column _ r w).trans ?_
    refine congrArg (Cert.Pool.eighth * ·) ?_
    refine (block_product _ _ r w).trans (Finset.sum_congr rfl fun u _ => ?_)
    exact congrArg (· * w1 (ix2 u w)) (group_mean acc 192 _ r u ⟨64 * (2 + 1) + u.val, by have := u.isLt; omega⟩ (by simp))

end Cert.Pool.Kern

end
-- ==== Proof.Blocks.lean ====
/-
  The blocks the kernel's windows hand a grid step, as entries of the argument arrays.

  The grid has 2 × 4 steps; step `t` works on batch rows `8·(t / 4) … 8·(t / 4) + 7` and points
  `2048·(t % 4) … 2048·(t % 4) + 2047`.  The feature window reads that box of `features`; the three position windows read
  the same box of the components `pos[·,·,0]`, `pos[·,·,1]`, `pos[·,·,2]`, which the host splits off before the call;
  the two weight windows read the whole matrices at every step.
-/
import proofs.«149502_j47502338294715_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.Pool.Kern
open Cert.KernelIdeal Cert.KernelIdeal.Gen Idealize.ShloMosaic.ValueIdx
variable {F : FTy → Type} [FloatOps F]
variable (m : (ℓ : Loc nD τ sig) → Buf (Elt F) ℓ)

/-- Which box each window's block is, decided over the eight steps. -/
theorem idx_feat : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

theorem idx_pos : ∀ t : Fin cfg0.N,
    (win0_1.index t (0 : Fin 2) = t.val / 4 ∧ win0_2.index t (0 : Fin 2) = t.val / 4 ∧ win0_3.index t (0 : Fin 2) = t.val / 4)
    ∧ (win0_1.index t (1 : Fin 2) = t.val % 4 ∧ win0_2.index t (1 : Fin 2) = t.val % 4 ∧ win0_3.index t (1 : Fin 2) = t.val % 4) :=
  (by decide +kernel : ∀ t : Fin grid0.N, _)

theorem idx_weights : ∀ t : Fin cfg0.N, win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_out : ∀ t : Fin cfg0.N, win0_6.index t (0 : Fin 2) = t.val / 4 ∧ win0_6.index t (1 : Fin 2) = 0 :=
  (by decide +kernel : ∀ t : Fin grid0.N, _)

/-- The feature block of step `t`. -/
theorem feat_block (c : Dev nD) (t : Fin cfg0.N) (r : Fin 8) (q : Fin 2048) (u : Fin 64) (b : Fin 16) (n : Fin 8192)
    (hb : b.val = 8 * (t.val / 4) + r.val) (hn : n.val = 2048 * (t.val % 4) + q.val) :
    (iblk m c 0 t : Vec F S8x2048x64 .f32) (ix3 r q u) = m ((c : Thread nD τ).loc main_arg0) (ix3 b n u) := by
  obtain ⟨e0, e1, e2⟩ := idx_feat t
  show V m c main_arg0 (((cfg0.win 0).blk t).view.emb (ix3 r q u)) = _
  rw [V_main_arg0]
  refine congrArg _ (funext fun a => Fin.ext ?_)
  match a with
  | ⟨0, _⟩ => show win0_0.index t (0 : Fin 3) * 8 + 1 * r.val = b.val; rw [e0]; omega
  | ⟨1, _⟩ => show win0_0.index t (1 : Fin 3) * 2048 + 1 * q.val = n.val; rw [e1]; omega
  | ⟨2, _⟩ => show win0_0.index t (2 : Fin 3) * 64 + 1 * u.val = u.val; rw [e2]; omega

/-- What the host leaves in the three split arrays: one component of `pos` each, the unit axis dropped. -/
theorem pos_array_0 (c : Dev nD) : (V m c main_v1 : S16x8192.Idx → Elt F .f32)
    = shapeCast S16x8192 (extractStridedSlice S16x8192x1 ![0, 0, 0] (m ((c : Thread nD τ).loc main_arg1)) Facts₀.slices_S16x8192x3_S16x8192x1_0_0_0) Facts₀.shapeCasts_S16x8192x1_S16x8192 := by
  dsimp only [Gen.V, Gen.hostOps0]
  after_results
  rfl

theorem pos_array_1 (c : Dev nD) : (V m c main_v3 : S16x8192.Idx → Elt F .f32)
    = shapeCast S16x8192 (extractStridedSlice S16x8192x1 ![0, 0, 1] (m ((c : Thread nD τ).loc main_arg1)) Facts₀.slices_S16x8192x3_S16x8192x1_0_0_1) Facts₀.shapeCasts_S16x8192x1_S16x8192 := by
  dsimp only [Gen.V, Gen.hostOps0]
  after_results
  rfl

theorem pos_array_2 (c : Dev nD) : (V m c main_v5 : S16x8192.Idx → Elt F .f32)
    = shapeCast S16x8192 (extractStridedSlice S16x8192x1 ![0, 0, 2] (m ((c : Thread nD τ).loc main_arg1)) Facts₀.slices_S16x8192x3_S16x8192x1_0_0_2) Facts₀.shapeCasts_S16x8192x1_S16x8192 := by
  dsimp only [Gen.V, Gen.hostOps0]
  after_results
  rfl

/-- The position blocks of step `t`. -/
theorem pos_block_0 (c : Dev nD) (t : Fin cfg0.N) (r : Fin 8) (q : Fin 2048) (b : Fin 16) (n : Fin 8192)
    (hb : b.val = 8 * (t.val / 4) + r.val) (hn : n.val = 2048 * (t.val % 4) + q.val) :
    (iblk m c 1 t : Vec F S8x2048 .f32) (ix2 r q) = m ((c : Thread nD τ).loc main_arg1) (ix3 b n (0 : Fin 3)) := by
  obtain ⟨e0, e1⟩ := idx_pos t
  have hb16 := b.isLt
  have hn8192 := n.isLt
  show V m c main_v1 (((cfg0.win 1).blk t).view.emb (ix2 r q)) = _
  rw [pos_array_0]
  refine (shapeCast_apply _ _ _ (ix3 b n (0 : Fin 1)) ?_).trans (extractStridedSlice_apply _ _ _ _ (ix3 b n (0 : Fin 3)) (fun a => ?_))
  · rw [Shape.rowMajor_val_three, Shape.rowMajor_val_two]
    show (b.val * 8192 + n.val) * 1 + 0 = (win0_1.index t (0 : Fin 2) * 8 + 1 * r.val) * 8192 + (win0_1.index t (1 : Fin 2) * 2048 + 1 * q.val)
    rw [e0.1, e1.1]; omega
  · match a with
    | ⟨0, _⟩ => show b.val = 0 + b.val; omega
    | ⟨1, _⟩ => show n.val = 0 + n.val; omega
    | ⟨2, _⟩ => show 0 = 0 + 0; rfl

theorem pos_block_1 (c : Dev nD) (t : Fin cfg0.N) (r : Fin 8) (q : Fin 2048) (b : Fin 16) (n : Fin 8192)
    (hb : b.val = 8 * (t.val / 4) + r.val) (hn : n.val = 2048 * (t.val % 4) + q.val) :
    (iblk m c 2 t : Vec F S8x2048 .f32) (ix2 r q) = m ((c : Thread nD τ).loc main_arg1) (ix3 b n (1 : Fin 3)) := by
  obtain ⟨e0, e1⟩ := idx_pos t
  have hb16 := b.isLt
  have hn8192 := n.isLt
  show V m c main_v3 (((cfg0.win 2).blk t).view.emb (ix2 r q)) = _
  rw [pos_array_1]
  refine (shapeCast_apply _ _ _ (ix3 b n (0 : Fin 1)) ?_).trans (extractStridedSlice_apply _ _ _ _ (ix3 b n (1 : Fin 3)) (fun a => ?_))
  · rw [Shape.rowMajor_val_three, Shape.rowMajor_val_two]
    show (b.val * 8192 + n.val) * 1 + 0 = (win0_2.index t (0 : Fin 2) * 8 + 1 * r.val) * 8192 + (win0_2.index t (1 : Fin 2) * 2048 + 1 * q.val)
    rw [e0.2.1, e1.2.1]; omega
  · match a with
    | ⟨0, _⟩ => show b.val = 0 + b.val; omega
    | ⟨1, _⟩ => show n.val = 0 + n.val; omega
    | ⟨2, _⟩ => show 1 = 1 + 0; rfl

theorem pos_block_2 (c : Dev nD) (t : Fin cfg0.N) (r : Fin 8) (q : Fin 2048) (b : Fin 16) (n : Fin 8192)
    (hb : b.val = 8 * (t.val / 4) + r.val) (hn : n.val = 2048 * (t.val % 4) + q.val) :
    (iblk m c 3 t : Vec F S8x2048 .f32) (ix2 r q) = m ((c : Thread nD τ).loc main_arg1) (ix3 b n (2 : Fin 3)) := by
  obtain ⟨e0, e1⟩ := idx_pos t
  have hb16 := b.isLt
  have hn8192 := n.isLt
  show V m c main_v5 (((cfg0.win 3).blk t).view.emb (ix2 r q)) = _
  rw [pos_array_2]
  refine (shapeCast_apply _ _ _ (ix3 b n (0 : Fin 1)) ?_).trans (extractStridedSlice_apply _ _ _ _ (ix3 b n (2 : Fin 3)) (fun a => ?_))
  · rw [Shape.rowMajor_val_three, Shape.rowMajor_val_two]
    show (b.val * 8192 + n.val) * 1 + 0 = (win0_3.index t (0 : Fin 2) * 8 + 1 * r.val) * 8192 + (win0_3.index t (1 : Fin 2) * 2048 + 1 * q.val)
    rw [e0.2.2, e1.2.2]; omega
  · match a with
    | ⟨0, _⟩ => show b.val = 0 + b.val; omega
    | ⟨1, _⟩ => show n.val = 0 + n.val; omega
    | ⟨2, _⟩ => show 2 = 2 + 0; rfl

/-- The weight blocks are the whole matrices. -/
theorem w0_block (c : Dev nD) (t : Fin cfg0.N) (u : Fin 64) (w : Fin 128) :
    (iblk m c 4 t : Vec F S64x128 .f32) (ix2 u w) = m ((c : Thread nD τ).loc main_arg2) (ix2 u w) := by
  obtain ⟨e0, e1, -, -⟩ := idx_weights t
  show V m c main_arg2 (((cfg0.win 4).blk t).view.emb (ix2 u w)) = _
  rw [V_main_arg2]
  refine congrArg _ (funext fun a => Fin.ext ?_)
  match a with
  | ⟨0, _⟩ => show win0_4.index t (0 : Fin 2) * 64 + 1 * u.val = u.val; rw [e0]; omega
  | ⟨1, _⟩ => show win0_4.index t (1 : Fin 2) * 128 + 1 * w.val = w.val; rw [e1]; omega

theorem w1_block (c : Dev nD) (t : Fin cfg0.N) (u : Fin 64) (w : Fin 128) :
    (iblk m c 5 t : Vec F S64x128 .f32) (ix2 u w) = m ((c : Thread nD τ).loc main_arg3) (ix2 u w) := by
  obtain ⟨-, -, e0, e1⟩ := idx_weights t
  show V m c main_arg3 (((cfg0.win 5).blk t).view.emb (ix2 u w)) = _
  rw [V_main_arg3]
  refine congrArg _ (funext fun a => Fin.ext ?_)
  match a with
  | ⟨0, _⟩ => show win0_5.index t (0 : Fin 2) * 64 + 1 * u.val = u.val; rw [e0]; omega
  | ⟨1, _⟩ => show win0_5.index t (1 : Fin 2) * 128 + 1 * w.val = w.val; rw [e1]; omega

end Cert.Pool.Kern

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Totals.lean ====
/-
  The running total and the output block, read entry by entry in terms of the argument arrays.

  For batch row `b`, group `kk` and feature `u`, point `n` contributes `f[b,n,u]` (group 0) or `f[b,n,u] · d[b,n,kk-1]` to
  column `64·kk + u` of the total.  A step adds the contributions of its block of 2048 points, so after the step at
  position `ν` of a batch chunk the total is the sum over the first `ν + 1` blocks, and after the fourth step the sum over
  all 8192 points.  The output block of that step is then `pooled` at the chunk's rows.  Only the associativity and
  commutativity of the addition of the extended reals are used.
-/
import proofs.«149502_j47502338294715_2_alg».proof.Proof.RunningTotal
import proofs.«149502_j47502338294715_2_alg».proof.Proof.StepSums
import proofs.«149502_j47502338294715_2_alg».proof.Proof.Epilogue
import proofs.«149502_j47502338294715_2_alg».proof.Proof.Blocks
import proofs.«149502_j47502338294715_2_alg».proof.Proof.LibBlockedSum
import proofs.«149502_j47502338294715_2_alg».proof.Proof.PoolSpec

noncomputable section

open Idealize.ShloMosaic Idealize.ShloMosaic.TcCoe Idealize.SL.Sem
open Idealize.ShloMosaic.Pipeline (Dat)

namespace Cert.Pool.Kern
open Cert.KernelIdeal Cert.KernelIdeal.Gen Idealize.ShloMosaic.ValueIdx BlockedSum
open scoped BigOperators

variable (f : (⟨3, ![16, 8192, 64]⟩ : Shape).Idx → EReal) (p : (⟨3, ![16, 8192, 3]⟩ : Shape).Idx → EReal)

/-- What point `n` contributes to column `64·kk + u` of batch row `b`'s total. -/
def colTerm (b : Fin 16) (kk : Fin 4) (u : Fin 64) (n : Fin 8192) : EReal :=
  if h : kk.val = 0 then f (ix3 b n u) else f (ix3 b n u) * Cert.Pool.dir p b n ⟨kk.val - 1, by omega⟩

theorem pick (x1 x2 x3 : FVec Ideal S8x2048 .f32) (i : S8x2048.Idx) (y : Fin 3 → EReal)
    (h1 : x1 i = y 0) (h2 : x2 i = y 1) (h3 : x3 i = y 2) (k : Fin 3) : (![x1, x2, x3] k) i = y k := by
  match k with
  | ⟨0, _⟩ => exact h1
  | ⟨1, _⟩ => exact h2
  | ⟨2, _⟩ => exact h3

/-- A block's term is the global term, once the block's entries are entries of the arrays. -/
theorem blkTerm_of_reads [Cert.KernelIdeal.Facts] (x0 : FVec Ideal S8x2048x64 .f32) (x1 x2 x3 : FVec Ideal S8x2048 .f32)
    (kk : Fin 4) (r : Fin 8) (u : Fin 64) (q : Fin 2048) (b : Fin 16) (n : Fin 8192)
    (h0 : x0 (ix3 r q u) = f (ix3 b n u)) (h1 : x1 (ix2 r q) = p (ix3 b n (0 : Fin 3)))
    (h2 : x2 (ix2 r q) = p (ix3 b n (1 : Fin 3))) (h3 : x3 (ix2 r q) = p (ix3 b n (2 : Fin 3))) :
    blkTerm x0 x1 x2 x3 kk r u q = colTerm f p b kk u n := by
  unfold blkTerm colTerm
  by_cases hk : kk.val = 0
  · rw [dif_pos hk, dif_pos hk, h0]
  · rw [dif_neg hk, dif_neg hk, h0]
    refine congrArg (f (ix3 b n u) * ·) ?_
    unfold blkDir Cert.Pool.dir Cert.Pool.sqLen
    rw [h1, h2, h3, pick x1 x2 x3 (ix2 r q) (fun k => p (ix3 b n k)) h1 h2 h3]

variable [Cert.KernelIdeal.Facts]
variable (m : (ℓ : Loc nD τ sig) → Buf (Elt Ideal) ℓ)

theorem pos8192 : 0 < 8192 := by decide

/-- The partial sums of step `t` are the block sums of the global terms. -/
theorem contribAt_apply (c : Dev nD) (t : Fin cfg0.N) (r : Fin 8) (kk : Fin 4) (u : Fin 64) (j : Fin 256) (hj : j.val = 64 * kk.val + u.val)
    (b : Fin 16) (hb : b.val = 8 * (t.val / 4) + r.val) :
    contribAt m c t (ix2 r j) = blockSum pos8192 2048 (colTerm (m ((c : Thread nD τ).loc main_arg0)) (m ((c : Thread nD τ).loc main_arg1)) b kk u) (t.val % 4) := by
  unfold contribAt
  refine (contrib_apply (iblk m c 0 t) (iblk m c 1 t) (iblk m c 2 t) (iblk m c 3 t) r kk u j hj).trans ?_
  unfold blockSum
  refine Finset.sum_congr rfl fun q _ => ?_
  have hq : (blkIdx pos8192 2048 (t.val % 4) q).val = 2048 * (t.val % 4) + q.val :=
    blkIdx_val pos8192 (by norm_num : 4 * 2048 = 8192) (Nat.mod_lt _ (by decide)) q
  exact blkTerm_of_reads (m ((c : Thread nD τ).loc main_arg0)) (m ((c : Thread nD τ).loc main_arg1)) (iblk m c 0 t) (iblk m c 1 t) (iblk m c 2 t) (iblk m c 3 t) kk r u q b (blkIdx pos8192 2048 (t.val % 4) q)
    (feat_block m c t r q u b _ hb hq) (pos_block_0 m c t r q b _ hb hq) (pos_block_1 m c t r q b _ hb hq) (pos_block_2 m c t r q b _ hb hq)

/-- The running total after step `t`: the sum over the chunk's blocks visited so far. -/
theorem accVal_apply (c : Dev nD) (n : ℕ) : ∀ (t : Fin cfg0.N), t.val = n → ∀ (r : Fin 8) (kk : Fin 4) (u : Fin 64) (j : Fin 256)
    (hj : j.val = 64 * kk.val + u.val) (b : Fin 16) (hb : b.val = 8 * (t.val / 4) + r.val),
    accVal m c t.val t.isLt (ix2 r j) = partialSum pos8192 2048 (colTerm (m ((c : Thread nD τ).loc main_arg0)) (m ((c : Thread nD τ).loc main_arg1)) b kk u) (t.val % 4) := by
  induction n with
  | zero =>
    intro t ht r kk u j hj b hb
    have h0 : t.val % 4 = 0 := by omega
    rw [accVal_first m c t h0]
    refine (add_apply _ _ _).trans ?_
    rw [start_apply, zero_add, contribAt_apply m c t r kk u j hj b hb, h0]
    exact (partialSum_zero pos8192 2048 _).symm
  | succ n ih =>
    intro t ht r kk u j hj b hb
    by_cases h0 : t.val % 4 = 0
    · rw [accVal_first m c t h0]
      refine (add_apply _ _ _).trans ?_
      rw [start_apply, zero_add, contribAt_apply m c t r kk u j hj b hb, h0]
      exact (partialSum_zero pos8192 2048 _).symm
    · have hdiv : (t.val - 1) / 4 = t.val / 4 := by omega
      have hmod : t.val % 4 = (t.val - 1) % 4 + 1 := by omega
      have ih' : accVal m c (t.val - 1) (Nat.lt_of_le_of_lt (Nat.sub_le _ _) t.isLt) (ix2 r j)
          = partialSum pos8192 2048 (colTerm (m ((c : Thread nD τ).loc main_arg0)) (m ((c : Thread nD τ).loc main_arg1)) b kk u) ((t.val - 1) % 4) :=
        ih (⟨t.val - 1, Nat.lt_of_le_of_lt (Nat.sub_le _ _) t.isLt⟩ : Fin cfg0.N) (by show t.val - 1 = n; omega) r kk u j hj b (by show b.val = 8 * ((t.val - 1) / 4) + r.val; omega)
      rw [accVal_next m c t h0]
      refine (add_apply _ _ _).trans ?_
      rw [ih', contribAt_apply m c t r kk u j hj b hb, hmod]
      exact (partialSum_succ pos8192 2048 _ ((t.val - 1) % 4)).symm

/-- After a chunk's fourth step the total is the sum over all the points. -/
theorem total_apply (c : Dev nD) (t : Fin cfg0.N) (h3 : t.val % 4 = 3) (r : Fin 8) (kk : Fin 4) (u : Fin 64) (j : Fin 256)
    (hj : j.val = 64 * kk.val + u.val) (b : Fin 16) (hb : b.val = 8 * (t.val / 4) + r.val) :
    accVal m c t.val t.isLt (ix2 r j) = ∑ i : Fin 8192, colTerm (m ((c : Thread nD τ).loc main_arg0)) (m ((c : Thread nD τ).loc main_arg1)) b kk u i := by
  rw [accVal_apply m c t.val t rfl r kk u j hj b hb, h3]
  exact partialSum_last pos8192 (by norm_num : 4 * 2048 = 8192) _ (by norm_num : 3 + 1 = 4)

/-- The output block of a chunk's last step, entry by entry, is `pooled` at the chunk's rows. -/
theorem out_apply (c : Dev nD) (t : Fin cfg0.N) (h3 : t.val % 4 = 3) (r : Fin 8) (j : Fin 512) (b : Fin 16) (hb : b.val = 8 * (t.val / 4) + r.val) :
    (outsAt0 m c t.val t.isLt).1 (ix2 r j) = Cert.Pool.pooledAt (m ((c : Thread nD τ).loc main_arg0)) (m ((c : Thread nD τ).loc main_arg1)) (m ((c : Thread nD τ).loc main_arg2)) (m ((c : Thread nD τ).loc main_arg3)) b j := by
  rw [out_eq m c t h3]
  unfold Cert.Pool.pooledAt
  by_cases hj : j.val < 128
  · rw [dif_pos hj]
    refine (epilogue_scalar (accVal m c t.val t.isLt) (iblk m c 4 t) (iblk m c 5 t) r j hj).trans ?_
    refine congrArg (Cert.Pool.eighth * ·) (Finset.sum_congr rfl fun u _ => ?_)
    rw [w0_block m c t u ⟨j.val, hj⟩, total_apply m c t h3 r (0 : Fin 4) u ⟨u.val, by have := u.isLt; omega⟩ (by simp) b hb]
    unfold Cert.Pool.meanFeat colTerm
    simp only [Fin.val_zero, dif_pos]
  · rw [dif_neg hj]
    have hj512 := j.isLt
    have hk3 : (j.val - 128) % 3 < 3 := Nat.mod_lt _ (by decide)
    refine (epilogue_vector (accVal m c t.val t.isLt) (iblk m c 4 t) (iblk m c 5 t) r (Cert.Pool.chan j hj) (Cert.Pool.comp j) j (by
      show j.val = 128 + 3 * ((j.val - 128) / 3) + (j.val - 128) % 3
      have := Nat.div_add_mod (j.val - 128) 3
      omega)).trans ?_
    refine congrArg (Cert.Pool.eighth * ·) (Finset.sum_congr rfl fun u _ => ?_)
    rw [w1_block m c t u (Cert.Pool.chan j hj),
      total_apply m c t h3 r (⟨(Cert.Pool.comp j).val + 1, by show (j.val - 128) % 3 + 1 < 4; omega⟩ : Fin 4) u
        ⟨64 * ((Cert.Pool.comp j).val + 1) + u.val, by have := u.isLt; show 64 * ((j.val - 128) % 3 + 1) + u.val < 256; omega⟩ rfl b hb]
    unfold Cert.Pool.meanDir colTerm
    simp only [Nat.add_sub_cancel, Nat.succ_ne_zero, Nat.add_one_ne_zero, dif_neg, not_false_eq_true]

end Cert.Pool.Kern

end
-- ==== Proof.KernelRun.lean ====
/-
  The pooling kernel's run: its result array ends holding `pooled` of the four argument arrays.

  The output block [8, 512] of batch chunk `β` is written back once, after the chunk's fourth step (grid positions 3
  and 7); it holds `pooled` at rows `8β … 8β + 7`.  The two blocks tile the [16, 512] result, so after the run the whole
  array is `pooled`.
-/
import proofs.«149502_j47502338294715_2_alg».proof.Proof.Gen.KernelIdeal.Value
import proofs.«149502_j47502338294715_2_alg».proof.Proof.Totals

noncomputable section

open Idealize.ShloMosaic Idealize.ShloMosaic.TcCoe Idealize.SL.Sem
open Idealize.ShloMosaic.Pipeline (Dat)

namespace Cert.Pool.Kern
open Cert.KernelIdeal Cert.KernelIdeal.Gen Idealize.ShloMosaic.ValueIdx
open scoped BigOperators

variable [Cert.KernelIdeal.Facts]
variable (m : (ℓ : Loc nD τ sig) → Buf (Elt Ideal) ℓ) (ρ : Dev nD → PrngReg)

/-- The result: `pooled` of the argument arrays as launched. -/
abbrev result (c : Dev nD) : S16x512.Idx → EReal :=
  Cert.Pool.pooled (m ((c : Thread nD τ).loc main_arg0)) (m ((c : Thread nD τ).loc main_arg1)) (m ((c : Thread nD τ).loc main_arg2)) (m ((c : Thread nD τ).loc main_arg3))

/-- What a write-back writes is the block of `pooled` at the chunk's rows. -/
theorem flushed_eq (c : Dev nD) (t : Fin cfg0.N) (hf : (cfg0.win 6).flush t = true) :
    (dats m 0 c).flushed 6 t = ((cfg0.win 6).blk t).view.read (Elt Ideal) (result m c) := by
  have h3 : t.val % 4 = 3 := (flush0_6 t).mp hf
  have hN : t.val < 8 := lt_of_lt_of_eq t.isLt (show cfg0.N = 8 from N_0)
  obtain ⟨e0, e1⟩ := idx_out t
  rw [Cert.KernelIdeal.Value.flushed6 m c t]
  refine funext fun (y : S8x512.Idx) => ?_
  obtain ⟨r, j, rfl⟩ : ∃ (r : Fin 8) (j : Fin 512), y = ix2 r j := ⟨y 0, y 1, eq_ix2 y⟩
  have hr := r.isLt
  show (outsAt0 m c t.val t.isLt).1 (ix2 r j) = result m c (((cfg0.win 6).blk t).view.emb (ix2 r j))
  rw [out_apply m c t h3 r j (⟨8 * (t.val / 4) + r.val, by omega⟩ : Fin 16) rfl]
  have hemb : (((cfg0.win 6).blk t).view.emb (ix2 r j) : S16x512.Idx) = ix2 (⟨8 * (t.val / 4) + r.val, by omega⟩ : Fin 16) j := by
    funext a; apply Fin.ext
    match a with
    | ⟨0, _⟩ => show win0_6.index t (0 : Fin 2) * 8 + 1 * r.val = 8 * (t.val / 4) + r.val; rw [e0]; omega
    | ⟨1, _⟩ => show win0_6.index t (1 : Fin 2) * 512 + 1 * j.val = j.val; rw [e1]; omega
  rw [hemb]
  rfl

/-- An index of the result is in step `t`'s output block iff each coordinate is in the block's range. -/
theorem mem_out_block (t : Fin cfg0.N) (i : S16x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v6).slice (win0_6.rect t)).set ↔ _
  rw [View.set_slice_whole, Rect.mem_set_unit]
  exact Iff.rfl

/-- Every index of the result is written back by the last step of its batch chunk. -/
theorem covered (i : S16x512.Idx) : ∃ t : Fin cfg0.N, (cfg0.win 6).flush t = true ∧ i ∈ ((cfg0.win 6).blk t).view.set := by
  have hi0 : (i 0).val < 16 := (i 0).isLt
  have hi1 : (i 1).val < 512 := (i 1).isLt
  have hN : cfg0.N = 8 := N_0
  refine ⟨⟨4 * ((i 0).val / 8) + 3, by omega⟩, (flush0_6 _).mpr (by show (4 * ((i 0).val / 8) + 3) % 4 = 3; omega), ?_⟩
  rw [mem_out_block]
  obtain ⟨e0, e1⟩ := idx_out (⟨4 * ((i 0).val / 8) + 3, by omega⟩ : Fin cfg0.N)
  have e0' : win0_6.index (⟨4 * ((i 0).val / 8) + 3, by omega⟩ : Fin cfg0.N) (0 : Fin 2) = (i 0).val / 8 := by
    rw [e0]; show (4 * ((i 0).val / 8) + 3) / 4 = (i 0).val / 8; omega
  intro a
  match a with
  | ⟨0, _⟩ =>
    show win0_6.index _ (0 : Fin 2) * 8 ≤ (i 0).val ∧ (i 0).val < win0_6.index _ (0 : Fin 2) * 8 + 8
    rw [e0']; omega
  | ⟨1, _⟩ =>
    show win0_6.index _ (1 : Fin 2) * 512 ≤ (i 1).val ∧ (i 1).val < win0_6.index _ (1 : Fin 2) * 512 + 512
    rw [e1]; omega

/-- So the result array ends holding `pooled`. -/
theorem final (c : Dev nD) : (dats m 0 c).arrAt 6 cfg0.N = result m c :=
  (dats m 0 c).arrAt_eq_of_cover 6 (result m c) (flushed_eq m c) (covered)

/-- The run, read: the result array at `pooled` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Pool.Kern

end
-- ==== Proof.RefForm.lean ====
/-
  The reference program's result, read element by element, is the arrangement `averaged` of Proof/PoolSpec.lean:
  every point's 64 features are contracted with a weight column first, the product with the direction component
  follows, and the mean over the 8192 points is taken last.
-/
import proofs.«149502_j47502338294715_2_alg».proof.Proof.Gen.ReferenceIdeal.Read
import proofs.«149502_j47502338294715_2_alg».proof.Proof.PoolSpec
import Idealize.ShloMosaic.Lib.ValueIdx
import Idealize.ShloMosaic.Lib.Pipeline.Value
import Idealize.ShloMosaic.Lib.ValueLayout
import Idealize.ShloMosaic.PureOps.Ideal.Laws

noncomputable section

namespace Cert.Pool.Ref

open Cert.ReferenceIdeal Cert.ReferenceIdeal.Gen Cert.ReferenceIdeal.Read
open Idealize.ShloMosaic Idealize.ShloMosaic.ValueIdx
open scoped BigOperators

variable (f : S16x8192x64.Idx → EReal) (p : S16x8192x3.Idx → EReal) (w0 w1 : S64x128.Idx → EReal)

/-! ### The direction of a position -/

/-- The squared length of position `(b, n)` is read at the three components of that position. -/
theorem idx_sq (b : Fin 16) (n : Fin 8192) (k k' : Fin 3) :
    idx_main_v1 (idx_main_v2 (idx_main_v4 (ix3 b n k))) k' = ix3 b n k' :=
  funext fun a => Fin.ext (by match a with | ⟨0, _⟩ => rfl | ⟨1, _⟩ => rfl | ⟨2, _⟩ => rfl)

/-- `√3` times the unit vector along position `(b, n)`, at component `k`. -/
theorem v14_at (b : Fin 16) (n : Fin 8192) (k : Fin 3) :
    val_main_v14 (F := Ideal) p (ix3 b n k) = Cert.Pool.dirSum p b n k := by
  rw [val_main_v14_apply, val_main_v13_apply, val_main_cst_1_apply, val_main_v5_apply, val_main_v4_apply,
    val_main_v3_apply, val_main_v2_apply, val_main_v1_apply, val_main_cst_apply]
  simp only [val_main_v0_apply, idx_sq, Ideal.mulf_def, Ideal.ofBits_def, Ideal.hostUnary_rsqrt_def,
    Ideal.ofBits_zero_f32, zero_add]
  rfl

/-! ### The scalar path -/

theorem lidx44 (b : Fin 16) (n : Fin 8192) (c : Fin 128) (u : Fin 64) :
    lidx_main_v44 (ix3 b n c) u = ix3 b n u :=
  funext fun a => Fin.ext (by match a with | ⟨0, _⟩ => rfl | ⟨1, _⟩ => rfl | ⟨2, _⟩ => rfl)

theorem ridx44 (b : Fin 16) (n : Fin 8192) (c : Fin 128) (u : Fin 64) :
    ridx_main_v44 (ix3 b n c) u = ix2 u c :=
  funext fun a => Fin.ext (by match a with | ⟨0, _⟩ => rfl | ⟨1, _⟩ => rfl)

/-- Column `c < 128` of point `(b, n)`: an eighth of the contraction with column `c` of the first weight matrix, times one. -/
theorem v49_at (b : Fin 16) (n : Fin 8192) (c : Fin 128) :
    val_main_v49 (F := Ideal) f w0 (ix3 b n c)
      = Cert.Pool.eighth * (∑ u : Fin 64, f (ix3 b n u) * w0 (ix2 u c)) * Cert.Pool.unit := by
  rw [val_main_v49_apply, val_main_v46_apply, val_main_v45_apply, val_main_cst_8_apply, val_main_v44_apply,
    val_main_v48_apply, val_main_v47_apply, val_main_v12_apply, val_main_cst_0_apply]
  simp only [lidx44, ridx44, Ideal.mulf_def, Ideal.ofBits_def]
  rfl

/-! ### The vector path -/

theorem lidx50 (b : Fin 16) (n : Fin 8192) (c : Fin 128) (u : Fin 64) :
    lidx_main_v50 (ix3 b n c) u = ix3 b n u :=
  funext fun a => Fin.ext (by match a with | ⟨0, _⟩ => rfl | ⟨1, _⟩ => rfl | ⟨2, _⟩ => rfl)

theorem ridx50 (b : Fin 16) (n : Fin 8192) (c : Fin 128) (u : Fin 64) :
    ridx_main_v50 (ix3 b n c) u = ix2 u c :=
  funext fun a => Fin.ext (by match a with | ⟨0, _⟩ => rfl | ⟨1, _⟩ => rfl)

theorem idx55 (b : Fin 16) (n : Fin 8192) (w : Fin 128) (k : Fin 3) :
    idx_main_v53 (idx_main_v55 (ix4 b n w k)) = ix3 b n w :=
  funext fun a => Fin.ext (by match a with | ⟨0, _⟩ => rfl | ⟨1, _⟩ => rfl | ⟨2, _⟩ => rfl)

theorem idx56 (b : Fin 16) (n : Fin 8192) (w : Fin 128) (k : Fin 3) :
    idx_main_v54 (idx_main_v56 (ix4 b n w k)) = ix3 b n k :=
  funext fun a => Fin.ext (by match a with | ⟨0, _⟩ => rfl | ⟨1, _⟩ => rfl | ⟨2, _⟩ => rfl)

/-- Entry `(w, k)` of point `(b, n)`'s `128 × 3` block: an eighth of the contraction with column `w` of the second weight
    matrix, times component `k` of the direction. -/
theorem v57_at (b : Fin 16) (n : Fin 8192) (w : Fin 128) (k : Fin 3) :
    val_main_v57 (F := Ideal) f p w1 (ix4 b n w k)
      = Cert.Pool.eighth * (∑ u : Fin 64, f (ix3 b n u) * w1 (ix2 u w)) * Cert.Pool.dirSum p b n k := by
  rw [val_main_v57_apply, val_main_v55_apply, val_main_v53_apply, idx55, val_main_v52_apply, val_main_v51_apply,
    val_main_cst_9_apply, val_main_v50_apply, val_main_v56_apply, val_main_v54_apply, idx56, v14_at]
  simp only [lidx50, ridx50, Ideal.mulf_def, Ideal.ofBits_def]
  rfl

/-- The `128 × 3` block laid out as 384 columns: column `c` is entry `(c / 3, c % 3)`. -/
theorem idx58 (b : Fin 16) (n : Fin 8192) (c : Fin 384) :
    idx_main_v58 (ix3 b n c)
      = ix4 b n (⟨c.val / 3, by have := c.isLt; omega⟩ : Fin 128) (⟨c.val % 3, Nat.mod_lt _ (by decide)⟩ : Fin 3) :=
  funext fun a => Fin.ext (by
    have hb : b.val < 16 := b.isLt
    have hn : n.val < 8192 := n.isLt
    have hc : c.val < 384 := c.isLt
    match a with
    | ⟨0, _⟩ => show ((b.val * 8192 + n.val) * 384 + c.val) / 3145728 = b.val; omega
    | ⟨1, _⟩ => show ((b.val * 8192 + n.val) * 384 + c.val) / 384 % 8192 = n.val; omega
    | ⟨2, _⟩ => show ((b.val * 8192 + n.val) * 384 + c.val) / 3 % 128 = c.val / 3; omega
    | ⟨3, _⟩ => show ((b.val * 8192 + n.val) * 384 + c.val) % 3 = c.val % 3; omega)

theorem v58_at (b : Fin 16) (n : Fin 8192) (c : Fin 384) :
    val_main_v58 (F := Ideal) f p w1 (ix3 b n c)
      = Cert.Pool.eighth * (∑ u : Fin 64, f (ix3 b n u) * w1 (ix2 u (⟨c.val / 3, by have := c.isLt; omega⟩ : Fin 128)))
          * Cert.Pool.dirSum p b n (⟨c.val % 3, Nat.mod_lt _ (by decide)⟩ : Fin 3) := by
  rw [val_main_v58_apply, idx58, v57_at]

/-! ### The two paths side by side -/

/-- Column `j` of point `(b, n)`: the scalar path below 128, the vector path from 128 on. -/
theorem v59_at (b : Fin 16) (n : Fin 8192) (j : Fin 512) :
    val_main_v59 (F := Ideal) f p w0 w1 (ix3 b n j) = Cert.Pool.latentAt f p w0 w1 b n j := by
  unfold val_main_v59 Cert.Pool.latentAt
  by_cases h : j.val < 128
  · rw [dif_pos h]
    refine (concatenate_pair_apply_left (2 : Fin S16x8192x512.rank) _ _
      concatenates_S16x8192x128_S16x8192x384_S16x8192x512_d2 (ix3 b n j) rfl (ix3 b n (⟨j.val, h⟩ : Fin 128))
      (fun a => by match a with | ⟨0, _⟩ => rfl | ⟨1, _⟩ => rfl | ⟨2, _⟩ => rfl)).trans ?_
    exact v49_at f w0 b n ⟨j.val, h⟩
  · rw [dif_neg h]
    have hj : j.val < 512 := j.isLt
    refine (concatenate_pair_apply_right (2 : Fin S16x8192x512.rank) _ _
      concatenates_S16x8192x128_S16x8192x384_S16x8192x512_d2 (ix3 b n j) rfl rfl
      (ix3 b n (⟨j.val - 128, by omega⟩ : Fin 384))
      (fun a => by match a with | ⟨0, _⟩ => exact fun _ => rfl | ⟨1, _⟩ => exact fun _ => rfl | ⟨2, _⟩ => exact fun hne => absurd rfl hne)
      (by show j.val - 128 + 128 = j.val; omega)).trans ?_
    exact v58_at f p w1 b n ⟨j.val - 128, by omega⟩

/-! ### The mean over the points -/

theorem idx60 (b : Fin 16) (j : Fin 512) (n : Fin 8192) : idx_main_v60 (ix2 b j) n = ix3 b n j :=
  funext fun a => Fin.ext (by match a with | ⟨0, _⟩ => rfl | ⟨1, _⟩ => rfl | ⟨2, _⟩ => rfl)

/-- The reference program's result is the arrangement that takes the mean over the points last. -/
theorem val_main_v62_eq_averaged :
    val_main_v62 (F := Ideal) f p w0 w1 = Cert.Pool.averaged f p w0 w1 := by
  funext i
  obtain ⟨b, j, rfl⟩ : ∃ (b : Fin 16) (j : Fin 512), i = ix2 b j := ⟨i 0, i 1, eq_ix2 i⟩
  rw [val_main_v62_apply, val_main_v60_apply, val_main_cst_10_apply, val_main_v61_apply, val_main_cst_11_apply]
  simp only [idx60, v59_at, Ideal.hostDivf_def, Ideal.ofBits_def, Ideal.ofBits_zero_f32, zero_add]
  rfl

end Cert.Pool.Ref

end
-- ==== Proof.LibERealSums.lean ====
/-
  Finite sums in the extended reals: the coercion from the reals commutes with them, and the law that joins the two
  groupings of a triple product

      Σ_m (Σ_s (Σ_t X n t · W s t) · X m s) · X m q   =   Σ_t X n t · (Σ_s W s t · (Σ_m X m s · X m q)),

  first over the reals (distributivity and exchanging the order of summation), then over the extended reals for
  families all of whose entries are real numbers: there the coercion commutes with products and finite sums, so the
  extended-real identity is the image of the real one. Over arbitrary extended reals the identity fails
  (distributivity does at the infinities), which is why finiteness of the entries is a hypothesis.
-/
import Mathlib

noncomputable section

namespace Cert.Bridge

open Finset

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The two groupings of the triple product agree over the reals: every term is `X n t · W s t · X m s · X m q`,
    summed over `m, s, t` on the left and over `t, s, m` on the right. -/
theorem regroup_real {N D : Type*} [Fintype N] [Fintype D] (X : N → D → ℝ) (W : D → D → ℝ) (n : N) (q : D) :
    ∑ m, (∑ s, (∑ t, X n t * W s t) * X m s) * X m q
      = ∑ t, X n t * (∑ s, W s t * (∑ m, X m s * X m q)) := by
  have hl : ∑ m, (∑ s, (∑ t, X n t * W s t) * X m s) * X m q
      = ∑ m, ∑ s, ∑ t, X n t * W s t * X m s * X m q := by
    refine Finset.sum_congr rfl fun m _ => ?_
    rw [Finset.sum_mul]
    refine Finset.sum_congr rfl fun s _ => ?_
    rw [Finset.sum_mul, Finset.sum_mul]
  have hr : ∑ t, X n t * (∑ s, W s t * (∑ m, X m s * X m q))
      = ∑ t, ∑ s, ∑ m, X n t * W s t * X m s * X m q := by
    refine Finset.sum_congr rfl fun t _ => ?_
    rw [Finset.mul_sum]
    refine Finset.sum_congr rfl fun s _ => ?_
    rw [Finset.mul_sum, Finset.mul_sum]
    refine Finset.sum_congr rfl fun m _ => ?_
    ring
  rw [hl, hr]
  -- m, s, t  →  s, m, t  →  s, t, m  →  t, s, m
  rw [Finset.sum_comm]
  rw [Finset.sum_congr rfl fun s _ => Finset.sum_comm]
  rw [Finset.sum_comm]

/-- The same over the extended reals, for families whose entries are all real numbers. -/
theorem regroup_ereal {N D : Type*} [Fintype N] [Fintype D] (x : N → D → EReal) (w : D → D → EReal)
    (hx : ∀ n d, ∃ r : ℝ, x n d = (r : EReal)) (hw : ∀ s t, ∃ r : ℝ, w s t = (r : EReal)) (n : N) (q : D) :
    ∑ m, (∑ s, (∑ t, x n t * w s t) * x m s) * x m q
      = ∑ t, x n t * (∑ s, w s t * (∑ m, x m s * x m q)) := by
  choose X hX using hx
  choose W hW using hw
  have ex : x = fun n d => ((X n d : ℝ) : EReal) := funext fun n => funext fun d => hX n d
  have ew : w = fun s t => ((W s t : ℝ) : EReal) := funext fun s => funext fun t => hW s t
  subst ex ew
  simp only [← EReal.coe_mul, ← coe_sum]
  exact congrArg _ (regroup_real X W n q)

end Cert.Bridge

end
-- ==== Proof.PoolLaw.lean ====
/-
  The distributive law of the pooling layer: averaging over the points before or after the contraction with the
  weights gives the same array, when every entry of the four arguments is a real number.

  Over the reals this is distributivity and an exchange of the order of two finite sums:

      (Σ_n c · (Σ_u F n u · W u) · d n) · N  =  c · Σ_u ((Σ_n F n u · d n) · N) · W u,

  every term being c · F n u · W u · d n · N on both sides.  Over the extended reals distributivity fails at the
  infinities, so the identity is proved for real entries only, as the image of the real identity under the
  coercion (which commutes with products and finite sums).  The direction factor d n is a real number whenever
  the position is: its squared length q is a real ≥ 0; for q > 0 the reciprocal square root is real, and for q = 0
  all three components vanish, so that √3 · 0 · ⊤ = 0.
-/
import proofs.«149502_j47502338294715_2_alg».proof.Proof.PoolSpec
import proofs.«149502_j47502338294715_2_alg».proof.Proof.LibERealSums
import Mathlib

noncomputable section

namespace Cert.Pool

open Idealize.ShloMosaic Idealize.ShloMosaic.ValueIdx
open scoped BigOperators

/-! ### The four constants -/

/-- The word 0x3F800000 denotes 1. -/
theorem unit_eq : unit = 1 := by
  simp [unit, Ideal.ofBits, Ideal.ieee, -EReal.coe_mul]; norm_num

/-- The word 0x3E000000 denotes 1/8. -/
theorem eighth_eq : eighth = ((1 / 8 : ℝ) : EReal) := by
  simp [eighth, Ideal.ofBits, Ideal.ieee, -EReal.coe_mul]; norm_num

/-- The word 0x46000000 denotes 8192. -/
theorem count_eq : count = ((8192 : ℝ) : EReal) := by
  simp [count, Ideal.ofBits, Ideal.ieee, -EReal.coe_mul]; norm_num

/-- The word 0x3FDDB3D7 denotes a real number (14529495 · 2⁻²³, the single-precision neighbour of √3). -/
theorem root3_real : ∃ r : ℝ, root3 = (r : EReal) := by
  refine ⟨14529495 / 8388608, ?_⟩
  simp [root3, Ideal.ofBits, Ideal.ieee, -EReal.coe_mul]; norm_num

/-! ### The law over the reals and over real-valued extended reals -/

/-- Averaging after the contraction equals contracting the averages, over the reals: both sides are the sum over
    n and u of c · F n u · W u · d n · N. -/
theorem mean_contract_real {ι κ : Type*} [Fintype ι] [Fintype κ] (F : ι → κ → ℝ) (W : κ → ℝ) (d : ι → ℝ)
    (c N : ℝ) :
    (∑ n, c * (∑ u, F n u * W u) * d n) * N = c * ∑ u, ((∑ n, F n u * d n) * N) * W u := by
  have hl : (∑ n, c * (∑ u, F n u * W u) * d n) * N = ∑ n, ∑ u, c * F n u * W u * d n * N := by
    rw [Finset.sum_mul]
    refine Finset.sum_congr rfl fun n _ => ?_
    rw [Finset.mul_sum, Finset.sum_mul, Finset.sum_mul]
    refine Finset.sum_congr rfl fun u _ => ?_
    ring
  have hr : c * ∑ u, ((∑ n, F n u * d n) * N) * W u = ∑ u, ∑ n, c * F n u * W u * d n * N := by
    rw [Finset.mul_sum]
    refine Finset.sum_congr rfl fun u _ => ?_
    rw [Finset.sum_mul, Finset.sum_mul, Finset.mul_sum]
    refine Finset.sum_congr rfl fun n _ => ?_
    ring
  rw [hl, hr, Finset.sum_comm]

/-- The same over the extended reals, for families whose entries are all real numbers. -/
theorem mean_contract_ereal {ι κ : Type*} [Fintype ι] [Fintype κ] (x : ι → κ → EReal) (w : κ → EReal)
    (d : ι → EReal) (c N : EReal)
    (hx : ∀ n u, ∃ r : ℝ, x n u = (r : EReal)) (hw : ∀ u, ∃ r : ℝ, w u = (r : EReal))
    (hd : ∀ n, ∃ r : ℝ, d n = (r : EReal)) (hc : ∃ r : ℝ, c = (r : EReal)) (hN : ∃ r : ℝ, N = (r : EReal)) :
    (∑ n, c * (∑ u, x n u * w u) * d n) * N = c * ∑ u, ((∑ n, x n u * d n) * N) * w u := by
  choose X hX using hx
  choose W hW using hw
  choose D hD using hd
  obtain ⟨C, rfl⟩ := hc
  obtain ⟨M, rfl⟩ := hN
  have ex : x = fun n u => ((X n u : ℝ) : EReal) := funext fun n => funext fun u => hX n u
  have ew : w = fun u => ((W u : ℝ) : EReal) := funext hW
  have ed : d = fun n => ((D n : ℝ) : EReal) := funext hD
  subst ex ew ed
  simp only [← EReal.coe_mul, ← Cert.Bridge.coe_sum]
  exact congrArg _ (mean_contract_real X W D C M)

/-- The case of the constant factor 1 in place of the direction. -/
theorem mean_contract_ereal_one {ι κ : Type*} [Fintype ι] [Fintype κ] (x : ι → κ → EReal) (w : κ → EReal)
    (c N : EReal)
    (hx : ∀ n u, ∃ r : ℝ, x n u = (r : EReal)) (hw : ∀ u, ∃ r : ℝ, w u = (r : EReal))
    (hc : ∃ r : ℝ, c = (r : EReal)) (hN : ∃ r : ℝ, N = (r : EReal)) :
    (∑ n, c * (∑ u, x n u * w u) * 1) * N = c * ∑ u, ((∑ n, x n u) * N) * w u := by
  have h := mean_contract_ereal x w (fun _ => (1 : EReal)) c N hx hw (fun _ => ⟨1, EReal.coe_one.symm⟩) hc hN
  simpa only [mul_one] using h

/-! ### The direction factor -/

variable (f : (⟨3, ![16, 8192, 64]⟩ : Shape).Idx → EReal) (p : (⟨3, ![16, 8192, 3]⟩ : Shape).Idx → EReal)
variable (w0 w1 : (⟨2, ![64, 128]⟩ : Shape).Idx → EReal)

/-- The sum of the three squares is the three squares added left to right. -/
theorem sqLenSum_eq (b : Fin 16) (n : Fin 8192) : sqLenSum p b n = sqLen p b n := by
  rw [sqLenSum, sqLen, Fin.sum_univ_three]

/-- The two spellings of the direction agree (associativity of the product). -/
theorem dirSum_eq (b : Fin 16) (n : Fin 8192) (k : Fin 3) : dirSum p b n k = dir p b n k := by
  rw [dirSum, dir, sqLenSum_eq, mul_assoc]

/-- Three reals whose squares add to zero all vanish. -/
theorem eq_zero_of_sq_sum_zero (g : Fin 3 → ℝ) (h : g 0 * g 0 + g 1 * g 1 + g 2 * g 2 = 0) (k : Fin 3) :
    g k = 0 := by
  have h0 := mul_self_nonneg (g 0)
  have h1 := mul_self_nonneg (g 1)
  have h2 := mul_self_nonneg (g 2)
  have e0 : g 0 = 0 := mul_self_eq_zero.mp (by linarith)
  have e1 : g 1 = 0 := mul_self_eq_zero.mp (by linarith)
  have e2 : g 2 = 0 := mul_self_eq_zero.mp (by linarith)
  fin_cases k
  · exact e0
  · exact e1
  · exact e2

/-- The direction of a real position is a real number: for squared length q > 0 it is √3 · p · (√q)⁻¹, and for
    q = 0 the component p itself is 0, so the product with ⊤ is 0. -/
theorem dir_real (hp : ∀ i, ∃ r : ℝ, p i = (r : EReal)) (b : Fin 16) (n : Fin 8192) (k : Fin 3) :
    ∃ r : ℝ, dir p b n k = (r : EReal) := by
  obtain ⟨c, hc⟩ := root3_real
  choose P hP using hp
  have hq : sqLen p b n
      = ((P (ix3 b n 0) * P (ix3 b n 0) + P (ix3 b n 1) * P (ix3 b n 1) + P (ix3 b n 2) * P (ix3 b n 2) : ℝ)
          : EReal) := by
    rw [sqLen, hP (ix3 b n 0), hP (ix3 b n 1), hP (ix3 b n 2), EReal.coe_add, EReal.coe_add, EReal.coe_mul,
      EReal.coe_mul, EReal.coe_mul]
  rw [dir, hq, hc, hP (ix3 b n k), Ideal.rsqrt_coe]
  by_cases h0 : P (ix3 b n 0) * P (ix3 b n 0) + P (ix3 b n 1) * P (ix3 b n 1) + P (ix3 b n 2) * P (ix3 b n 2) = 0
  · have hk : P (ix3 b n k) = 0 := eq_zero_of_sq_sum_zero (fun k => P (ix3 b n k)) h0 k
    rw [hk, EReal.coe_zero, mul_zero, zero_mul]
    exact ⟨0, EReal.coe_zero.symm⟩
  · have hneg : ¬ P (ix3 b n 0) * P (ix3 b n 0) + P (ix3 b n 1) * P (ix3 b n 1) + P (ix3 b n 2) * P (ix3 b n 2) < 0 :=
      not_lt.mpr (add_nonneg (add_nonneg (mul_self_nonneg _) (mul_self_nonneg _)) (mul_self_nonneg _))
    rw [if_neg hneg, if_neg h0, ← EReal.coe_mul, ← EReal.coe_mul]
    exact ⟨_, rfl⟩

/-! ### The two arrangements agree -/

theorem count_div (x : EReal) : Ideal.div x count = x * ((1 / 8192 : ℝ) : EReal) := by
  rw [count_eq, Ideal.div_coe (by norm_num)]

/-- Columns below 128: no direction factor. -/
theorem averagedAt_lo (hf : ∀ i, ∃ r : ℝ, f i = (r : EReal)) (hw0 : ∀ i, ∃ r : ℝ, w0 i = (r : EReal))
    (b : Fin 16) (j : Fin 512) (h : j.val < 128) :
    averagedAt f p w0 w1 b j = pooledAt f p w0 w1 b j := by
  have hl : ∀ n : Fin 8192, latentAt f p w0 w1 b n j
      = eighth * (∑ u : Fin 64, f (ix3 b n u) * w0 (ix2 u ⟨j.val, h⟩)) * 1 := fun n => by
    rw [latentAt, dif_pos h, unit_eq]
  have hm : ∀ u : Fin 64, meanFeat f b u = (∑ n : Fin 8192, f (ix3 b n u)) * ((1 / 8192 : ℝ) : EReal) :=
    fun u => by rw [meanFeat, count_div]
  have e1 : (∑ n : Fin 8192, latentAt f p w0 w1 b n j)
      = ∑ n : Fin 8192, eighth * (∑ u : Fin 64, f (ix3 b n u) * w0 (ix2 u ⟨j.val, h⟩)) * 1 :=
    Finset.sum_congr rfl fun n _ => hl n
  have e2 : (∑ u : Fin 64, meanFeat f b u * w0 (ix2 u ⟨j.val, h⟩))
      = ∑ u : Fin 64, ((∑ n : Fin 8192, f (ix3 b n u)) * ((1 / 8192 : ℝ) : EReal)) * w0 (ix2 u ⟨j.val, h⟩) :=
    Finset.sum_congr rfl fun u _ => by rw [hm u]
  rw [averagedAt, pooledAt, dif_pos h, count_div, e1, e2]
  exact mean_contract_ereal_one (fun (n : Fin 8192) (u : Fin 64) => f (ix3 b n u))
    (fun u : Fin 64 => w0 (ix2 u ⟨j.val, h⟩)) eighth _ (fun n u => hf _) (fun u => hw0 _) ⟨_, eighth_eq⟩ ⟨_, rfl⟩

/-- Columns from 128 on: the direction component `comp j` multiplies every point's contraction. -/
theorem averagedAt_hi (hf : ∀ i, ∃ r : ℝ, f i = (r : EReal)) (hp : ∀ i, ∃ r : ℝ, p i = (r : EReal))
    (hw1 : ∀ i, ∃ r : ℝ, w1 i = (r : EReal)) (b : Fin 16) (j : Fin 512) (h : ¬ j.val < 128) :
    averagedAt f p w0 w1 b j = pooledAt f p w0 w1 b j := by
  have hl : ∀ n : Fin 8192, latentAt f p w0 w1 b n j
      = eighth * (∑ u : Fin 64, f (ix3 b n u) * w1 (ix2 u (chan j h))) * dir p b n (comp j) := fun n => by
    rw [latentAt, dif_neg h, dirSum_eq]
  have hm : ∀ u : Fin 64, meanDir f p b u (comp j)
      = (∑ n : Fin 8192, f (ix3 b n u) * dir p b n (comp j)) * ((1 / 8192 : ℝ) : EReal) :=
    fun u => by rw [meanDir, count_div]
  have e1 : (∑ n : Fin 8192, latentAt f p w0 w1 b n j)
      = ∑ n : Fin 8192, eighth * (∑ u : Fin 64, f (ix3 b n u) * w1 (ix2 u (chan j h))) * dir p b n (comp j) :=
    Finset.sum_congr rfl fun n _ => hl n
  have e2 : (∑ u : Fin 64, meanDir f p b u (comp j) * w1 (ix2 u (chan j h)))
      = ∑ u : Fin 64, ((∑ n : Fin 8192, f (ix3 b n u) * dir p b n (comp j)) * ((1 / 8192 : ℝ) : EReal))
          * w1 (ix2 u (chan j h)) :=
    Finset.sum_congr rfl fun u _ => by rw [hm u]
  rw [averagedAt, pooledAt, dif_neg h, count_div, e1, e2]
  exact mean_contract_ereal (fun (n : Fin 8192) (u : Fin 64) => f (ix3 b n u))
    (fun u : Fin 64 => w1 (ix2 u (chan j h))) (fun n : Fin 8192 => dir p b n (comp j)) eighth _
    (fun n u => hf _) (fun u => hw1 _) (fun n => dir_real p hp b n (comp j)) ⟨_, eighth_eq⟩ ⟨_, rfl⟩

/-- Averaging last and averaging first give the same array when every entry of the arguments is real. -/
theorem averaged_eq_pooled (hf : ∀ i, ∃ r : ℝ, f i = (r : EReal)) (hp : ∀ i, ∃ r : ℝ, p i = (r : EReal))
    (hw0 : ∀ i, ∃ r : ℝ, w0 i = (r : EReal)) (hw1 : ∀ i, ∃ r : ℝ, w1 i = (r : EReal)) :
    averaged f p w0 w1 = pooled f p w0 w1 := by
  funext i
  show averagedAt f p w0 w1 (i 0) (i 1) = pooledAt f p w0 w1 (i 0) (i 1)
  by_cases h : (i 1).val < 128
  · exact averagedAt_lo f p w0 w1 hf hw0 (i 0) (i 1) h
  · exact averagedAt_hi f p w0 w1 hf hp hw1 (i 0) (i 1) h

end Cert.Pool

end
-- ==== Proof.FiniteArgs.lean ====
/-
  Finiteness of the arguments.

  The precondition says, of each of the four argument arrays, that every entry `x` has `|x| < +∞`, the four
  statements joined by `and`.  Over the extended reals `|x| = max x (-x)`, and `max x (-x) < ⊤` excludes exactly
  `x = ⊤` and `x = ⊥`: every entry of every argument is a real number.
-/
import proofs.«149502_j47502338294715_2_alg».proof.Defs
import proofs.«149502_j47502338294715_2_alg».proof.Proof.Gen.Pre_finite_inputs
import Idealize.ShloMosaic.Lib.ReduceAll
import Idealize.ShloMosaic.Lib.IdealHost
import Idealize.ShloMosaic.Lib.ValueIdx

namespace Cert.Pool.Finite

open Idealize.ShloMosaic Idealize.ShloMosaic.ValueIdx Idealize.SL.Sem

/-- The word `0x7F800000` denotes `+∞`. -/
theorem ofBits_inf : Ideal.ofBits .f32 0x7F800000#32 = (⊤ : EReal) := by simp [Ideal.ofBits, Ideal.ieee]

/-- An extended real `x` with `max x (-x) < ⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` answering 1 at one entry says that the entry is a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

instance : Subsingleton Cert.Pre_finite_inputs.S_.Idx := ⟨fun a b => funext fun d => d.elim0⟩

/-- One `jnp.all (|a| < +∞)` of the precondition, read back: every entry of `a` is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, a i = (r : EReal) := by
  have h1 := Host.reduce_andi_all _ _ hr hu ix0 e i
  rw [cmpf_apply, broadcastInDim_scalar_apply] at h1
  exact real_of_cmp (a i) h1

/-- The precondition as a function of any four arrays: when it holds, every entry of each is a real number. -/
theorem real_of_fn [Cert.Pre_finite_inputs.Facts]
    (a0 : FVec Ideal Cert.Pre_finite_inputs.S16x8192x64 .f32) (a1 : FVec Ideal Cert.Pre_finite_inputs.S16x8192x3 .f32)
    (a2 a3 : FVec Ideal Cert.Pre_finite_inputs.S64x128 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3⟩

/-- Under the idealized kernel's precondition every entry of each of its four argument arrays is a real number. -/
theorem real_args [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  real_of_fn _ _ _ _ (h c)

end Cert.Pool.Finite
-- ==== Proof.lean ====
/-
  The equivalence of the fused equivariant-pooling kernel and its reference, over the extended reals.

  Both programs map features `f[b,n,u]`, positions `p[b,n,k]` and two weight matrices to the array [16, 512] whose row `b`
  is the mean over the 8192 points `n` of the point's latent vector: 128 scalar channels `(1/8)·Σ_u f[b,n,u]·W₀[u,w]` followed by
  128 vector channels `(1/8)·(Σ_u f[b,n,u]·W₁[u,w])·d[b,n,k]`, `d` being `√3` times the unit vector of `p[b,n,·]`
  (Proof/PoolSpec.lean).

  The reference computes exactly that, contraction first and mean last (`averaged`: Proof/RefForm.lean reads its run).
  The kernel exchanges the two sums: over a grid of 2 batch chunks × 4 blocks of 2048 points it accumulates, per batch row,
  the sums over `n` of `f[b,n,u]` and of `f[b,n,u]·d[b,n,k]`, and after a chunk's last block divides by 8192 and contracts
  the 4 × 64 means with the weights (`pooled`: Proof/StepValues.lean, StepSums.lean, Epilogue.lean, RunningTotal.lean,
  Totals.lean, KernelRun.lean read its run).  The sums over the points re-associate freely (Proof/LibBlockedSum.lean);
  exchanging the mean over `n` with the contraction over `u` is the distributive law, which holds because every entry is
  a real number: the arguments by the precondition (Proof/FiniteArgs.lean), and `d` because at the origin
  `√3·0·rsqrt 0 = 0` and elsewhere the squared length is positive (Proof/PoolLaw.lean).

  The ideal pass rewrote nothing in the kernel, so the preservation claim is trivial; the two kernels' frames are the
  generated ones, and the reference's frame is its run with the result dropped.
-/
import proofs.«149502_j47502338294715_2_alg».proof.Defs
import proofs.«149502_j47502338294715_2_alg».proof.Proof.Gen.Kernel
import proofs.«149502_j47502338294715_2_alg».proof.Proof.Gen.Kernel.Skeleton
import proofs.«149502_j47502338294715_2_alg».proof.Proof.Gen.Kernel.Launch
import proofs.«149502_j47502338294715_2_alg».proof.Proof.Gen.Kernel.Points
import proofs.«149502_j47502338294715_2_alg».proof.Proof.Gen.Kernel.Frame
import proofs.«149502_j47502338294715_2_alg».proof.Proof.Gen.KernelIdeal
import proofs.«149502_j47502338294715_2_alg».proof.Proof.Gen.KernelIdeal.Skeleton
import proofs.«149502_j47502338294715_2_alg».proof.Proof.Gen.KernelIdeal.Launch
import proofs.«149502_j47502338294715_2_alg».proof.Proof.Gen.KernelIdeal.Points
import proofs.«149502_j47502338294715_2_alg».proof.Proof.Gen.KernelIdeal.Frame
import proofs.«149502_j47502338294715_2_alg».proof.Proof.Gen.KernelIdeal.Value
import proofs.«149502_j47502338294715_2_alg».proof.Proof.Gen.ReferenceIdeal
import proofs.«149502_j47502338294715_2_alg».proof.Proof.Gen.ReferenceIdeal.Run
import proofs.«149502_j47502338294715_2_alg».proof.Proof.Gen.ReferenceIdeal.Read
import proofs.«149502_j47502338294715_2_alg».proof.Proof.Gen.Pre_finite_inputs
import proofs.«149502_j47502338294715_2_alg».proof.Proof.KernelRun
import proofs.«149502_j47502338294715_2_alg».proof.Proof.RefForm
import proofs.«149502_j47502338294715_2_alg».proof.Proof.PoolLaw
import proofs.«149502_j47502338294715_2_alg».proof.Proof.FiniteArgs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at `pooled` of its arguments, the reference's at `averaged` of arguments that agree with
    them; the arguments hold real numbers, so the two are one array. -/
theorem algebraic : Cert.algebraic_KernelIdeal_ReferenceIdeal := by
  intro m ρ m' ρ' hpre hagree
  refine ⟨fun c => Cert.Pool.Kern.result m c, Cert.Pool.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨hf, hp, hw0, hw1⟩ := Cert.Pool.Finite.real_args m hpre c
  rw [(hagree c).1, (hagree c).2.1, (hagree c).2.2.1, (hagree c).2.2.2]
  exact (Cert.ReferenceIdeal.Read.val_main_v62_eq _ _ _ _).trans
    ((Cert.Pool.Ref.val_main_v62_eq_averaged _ _ _ _).trans (Cert.Pool.averaged_eq_pooled _ _ _ _ hf hp hw0 hw1))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
